-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S2048x200 : Shape := ⟨2, ![2048, 200]⟩
abbrev S100000x256 : Shape := ⟨2, ![100000, 256]⟩
abbrev S256x256 : Shape := ⟨2, ![256, 256]⟩
abbrev S200x256 : Shape := ⟨2, ![200, 256]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S200x256 : S_.BroadcastsInDim S200x256 (![] : Fin 0 → Fin S200x256.rank)
  reducesTo_S200x256_S_d0_1 : S200x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg9 : FVec F S200x256 .f32) (main_arg10 : FVec F S200x256 .f32) (main_arg11 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S200x256 .f32 := Host.absf main_arg9
  let main_cst_6 : FVec F S_ .f32 := constant S_ .f32 0x7F800000#32
  let main_v20 : FVec F S200x256 .f32 := broadcastInDim S200x256 ![] bcast_S_S200x256 main_cst_6
  let main_v21 : IVec S200x256 1 := cmpf .olt main_v19 main_v20
  let main_c_7 : IVec S_ 1 := constantI S_ 1 1#1
  let main_v22 : IVec S_ 1 := (fun x v => Host.reduce IntOp.andi x v reducesTo_S200x256_S_d0_1 h_S_) main_v21 main_c_7
  let main_v23 : IVec S_ 1 := andi main_v18 main_v22
  let main_v24 : FVec F S200x256 .f32 := Host.absf main_arg10
  let main_cst_8 : FVec F S_ .f32 := constant S_ .f32 0x7F800000#32
  let main_v25 : FVec F S200x256 .f32 := broadcastInDim S200x256 ![] bcast_S_S200x256 main_cst_8
  let main_v26 : IVec S200x256 1 := cmpf .olt main_v24 main_v25
  let main_c_9 : IVec S_ 1 := constantI S_ 1 1#1
  let main_v27 : IVec S_ 1 := (fun x v => Host.reduce IntOp.andi x v reducesTo_S200x256_S_d0_1 h_S_) main_v26 main_c_9
  let main_v28 : IVec S_ 1 := andi main_v23 main_v27
  let main_v29 : FVec F S1 .f32 := Host.absf main_arg11
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : IVec S2048 32) (main_arg1 : IVec S2048 32) (main_arg2 : IVec S2048x200 32) (main_arg3 : IVec S2048 32) (main_arg4 : IVec S2048 32) (main_arg5 : FVec F S100000x256 .f32) (main_arg6 : FVec F S100000x256 .f32) (main_arg7 : FVec F S256x256 .f32) (main_arg8 : FVec F S256x256 .f32) (main_arg9 : FVec F S200x256 .f32) (main_arg10 : FVec F S200x256 .f32) (main_arg11 : FVec F S1 .f32) : IVec S_ 1 :=
  let main_v0 : FVec F S100000x256 .f32 := Host.absf main_arg5
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg6
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x256 .f32 := Host.absf main_arg7
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg8
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg9 main_arg10 main_arg11 main_v13 main_v16
-- ==== Kernel.lean ====
abbrev S2048 : Shape := ⟨1, ![2048]⟩
abbrev S2048x200 : Shape := ⟨2, ![2048, 200]⟩
abbrev S100000x256 : Shape := ⟨2, ![100000, 256]⟩
abbrev S256x256 : Shape := ⟨2, ![256, 256]⟩
abbrev S200x256 : Shape := ⟨2, ![200, 256]⟩
abbrev S1 : Shape := ⟨1, ![1]⟩
abbrev S_ : Shape := ⟨0, ![]⟩
abbrev S2048x1 : Shape := ⟨2, ![2048, 1]⟩
abbrev S2048x256 : Shape := ⟨2, ![2048, 256]⟩
abbrev S2048x200x1 : Shape := ⟨3, ![2048, 200, 1]⟩
abbrev S2048x200x256 : Shape := ⟨3, ![2048, 200, 256]⟩
abbrev S1x1 : Shape := ⟨2, ![1, 1]⟩
abbrev S32x256 : Shape := ⟨2, ![32, 256]⟩
abbrev S32x200x256 : Shape := ⟨3, ![32, 200, 256]⟩
abbrev S32x1 : Shape := ⟨2, ![32, 1]⟩
abbrev S32 : Shape := ⟨1, ![32]⟩
abbrev S32x200 : Shape := ⟨2, ![32, 200]⟩
abbrev S32x200x1 : Shape := ⟨3, ![32, 200, 1]⟩
abbrev S6400x256 : Shape := ⟨2, ![6400, 256]⟩
abbrev S1x200x256 : Shape := ⟨3, ![1, 200, 256]⟩
abbrev S32x1x256 : Shape := ⟨3, ![32, 1, 256]⟩

abbrev nBuf : Space → Nat
  | .hbm => 43
  | .vmem => 12
  | .smem => 0
  | _ => 0

abbrev bufTy : (tb : Table) → Fin (tcTables nBuf tb) → BufTy
  | .hbm, ⟨0, _⟩ => ⟨S2048, .i32⟩
  | .hbm, ⟨1, _⟩ => ⟨S2048, .i32⟩
  | .hbm, ⟨2, _⟩ => ⟨S2048x200, .i32⟩
  | .hbm, ⟨3, _⟩ => ⟨S2048, .i32⟩
  | .hbm, ⟨4, _⟩ => ⟨S2048, .i32⟩
  | .hbm, ⟨5, _⟩ => ⟨S100000x256, .f32⟩
  | .hbm, ⟨6, _⟩ => ⟨S100000x256, .f32⟩
  | .hbm, ⟨7, _⟩ => ⟨S256x256, .f32⟩
  | .hbm, ⟨8, _⟩ => ⟨S256x256, .f32⟩
  | .hbm, ⟨9, _⟩ => ⟨S200x256, .f32⟩
  | .hbm, ⟨10, _⟩ => ⟨S200x256, .f32⟩
  | .hbm, ⟨11, _⟩ => ⟨S1, .f32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .i32⟩
  | .hbm, ⟨19, _⟩ => ⟨S2048x1, .i32⟩
  | .hbm, ⟨20, _⟩ => ⟨S2048x256, .f32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S2048x1, .i32⟩
  | .hbm, ⟨29, _⟩ => ⟨S2048x256, .f32⟩
  | .hbm, ⟨30, _⟩ => ⟨S_, .i32⟩
  | .hbm, ⟨31, _⟩ => ⟨S2048x200, .i32⟩
  | .hbm, ⟨32, _⟩ => ⟨S2048x200, .i1⟩
  | .hbm, ⟨33, _⟩ => ⟨S_, .i32⟩
  | .hbm, ⟨34, _⟩ => ⟨S2048x200, .i32⟩
  | .hbm, ⟨35, _⟩ => ⟨S2048x200, .i32⟩
  | .hbm, ⟨36, _⟩ => ⟨S2048x200, .i32⟩
  | .hbm, ⟨37, _⟩ => ⟨S2048x200x1, .i32⟩
  | .hbm, ⟨38, _⟩ => ⟨S2048x200x256, .f32⟩
  | .hbm, ⟨39, _⟩ => ⟨S200x256, .f32⟩
  | .hbm, ⟨40, _⟩ => ⟨S1x1, .f32⟩
  | .hbm, ⟨41, _⟩ => ⟨S2048x1, .f32⟩
  | .hbm, ⟨42, _⟩ => ⟨S2048, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x200x256, .f32⟩
  | .local _ .vmem, ⟨5, _⟩ => ⟨S32x200x256, .f32⟩
  | .local _ .vmem, ⟨6, _⟩ => ⟨S256x256, .f32⟩
  | .local _ .vmem, ⟨7, _⟩ => ⟨S200x256, .f32⟩
  | .local _ .vmem, ⟨8, _⟩ => ⟨S200x256, .f32⟩
  | .local _ .vmem, ⟨9, _⟩ => ⟨S1x1, .f32⟩
  | .local _ .vmem, ⟨10, _⟩ => ⟨S32x1, .f32⟩
  | .local _ .vmem, ⟨11, _⟩ => ⟨S32x1, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x200x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S200x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x200 : S_.BroadcastsInDim S2048x200 (![] : Fin 0 → Fin S2048x200.rank)
  bcast_S2048x200_S2048x200x1_0_1 : S2048x200.BroadcastsInDim S2048x200x1 (![0, 1] : Fin 2 → Fin S2048x200x1.rank)
  shapeCasts_S1_S1x1 : S1.ShapeCasts S1x1
  inb_S32x256_S32x256_0_0 : ∀ a, (![0, 0] : Fin 2 → Nat) a + S32x256.size a ≤ S32x256.size a
  h_S32x256 : 0 < S32x256.numel
  shapeCasts_S32x256_S32x256 : S32x256.ShapeCasts S32x256
  reduces_S32x256_S32 : S32x256.Reduces [1] S32
  shapeCasts_S32_S32x1 : S32.ShapeCasts S32x1
  broadcasts_S32x1_S32x256 : S32x1.Broadcasts S32x256
  inb_S32x200x256_S32x200x256_0_0_0 : ∀ a, (![0, 0, 0] : Fin 3 → Nat) a + S32x200x256.size a ≤ S32x200x256.size a
  h_S32x200x256 : 0 < S32x200x256.numel
  shapeCasts_S32x200x256_S32x200x256 : S32x200x256.ShapeCasts S32x200x256
  reduces_S32x200x256_S32x200 : S32x200x256.Reduces [2] S32x200
  shapeCasts_S32x200_S32x200x1 : S32x200.ShapeCasts S32x200x1
  broadcasts_S32x200x1_S32x200x256 : S32x200x1.Broadcasts S32x200x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  shapeCasts_S32x200x256_S6400x256 : S32x200x256.ShapeCasts S6400x256
  shapeCasts_S6400x256_S32x200x256 : S6400x256.ShapeCasts S32x200x256
  inb_S200x256_S200x256_0_0 : ∀ a, (![0, 0] : Fin 2 → Nat) a + S200x256.size a ≤ S200x256.size a
  h_S200x256 : 0 < S200x256.numel
  shapeCasts_S200x256_S200x256 : S200x256.ShapeCasts S200x256
  shapeCasts_S200x256_S1x200x256 : S200x256.ShapeCasts S1x200x256
  broadcasts_S1x200x256_S32x200x256 : S1x200x256.Broadcasts S32x200x256
  reduces_S32x200x256_S32x256 : S32x200x256.Reduces [1] S32x256
  shapeCasts_S32x256_S32x1x256 : S32x256.ShapeCasts S32x1x256
  broadcasts_S32x1x256_S32x200x256 : S32x1x256.Broadcasts S32x200x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  inb_S32x1_S32x1_0_0 : ∀ a, (![0, 0] : Fin 2 → Nat) a + S32x1.size a ≤ S32x1.size a
  h_S32x1 : 0 < S32x1.numel
  shapeCasts_S2048x1_S2048 : S2048x1.ShapeCasts S2048
  gather_S100000x256_S2048x1_S2048x256_1_0_n_n_0_1_1256_wf : GatherDims.WF S100000x256 S2048x1 S2048x256 [1] [0] [] [0] [] 1 ![1, 256]
  gather_S100000x256_S2048x200x1_S2048x200x256_2_0_n_n_0_2_1256_wf : GatherDims.WF S100000x256 S2048x200x1 S2048x200x256 [2] [0] [] [0] [] 2 ![1, 256]
  dot_S200x256_S256x256_S200x256_1_0_0_1_n_n_wf : DotDims.WF S200x256 S256x256 S200x256 [1] [0] [0] [1] [] []
  dot_S6400x256_S256x256_S6400x256_1_0_0_1_n_n_wf : DotDims.WF S6400x256 S256x256 S6400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S2048x256.size a
  hwx0_0 : ∀ i : grid0.Coords, EltTy.bits .f32 = 32 ∨ (Rect.block (s := S2048x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S2048x256.size a
  hwx0_1 : ∀ i : grid0.Coords, EltTy.bits .f32 = 32 ∨ (Rect.block (s := S2048x256) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x200x256.size a ≤ S2048x200x256.size a
  hwx0_2 : ∀ i : grid0.Coords, EltTy.bits .f32 = 32 ∨ (Rect.block (s := S2048x200x256) S32x200x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S200x256.size a ≤ S200x256.size a
  hwx0_4 : ∀ i : grid0.Coords, EltTy.bits .f32 = 32 ∨ (Rect.block (s := S200x256) S200x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S200x256.size a ≤ S200x256.size a
  hwx0_5 : ∀ i : grid0.Coords, EltTy.bits .f32 = 32 ∨ (Rect.block (s := S200x256) S200x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S2048x1.size a
  hwx0_7 : ∀ i : grid0.Coords, EltTy.bits .f32 = 32 ∨ (Rect.block (s := S2048x1) S32x1.size (cc0_transform_7 i) (hinb0_7 i)).WholeWords (EltTy.packing .f32)

variable [Facts₀]

def gather_S100000x256_S2048x1_S2048x256_1_0_n_n_0_1_1256 : GatherDims S100000x256 S2048x1 S2048x256 where
  offsetDims := [1]
  collapsedSliceDims := [0]
  operandBatchingDims := []
  startIndicesBatchingDims := []
  startIndexMap := [0]
  indexVectorDim := 1
  sliceSizes := ![1, 256]
  wf := gather_S100000x256_S2048x1_S2048x256_1_0_n_n_0_1_1256_wf
def gather_S100000x256_S2048x200x1_S2048x200x256_2_0_n_n_0_2_1256 : GatherDims S100000x256 S2048x200x1 S2048x200x256 where
  offsetDims := [2]
  collapsedSliceDims := [0]
  operandBatchingDims := []
  startIndicesBatchingDims := []
  startIndexMap := [0]
  indexVectorDim := 2
  sliceSizes := ![1, 256]
  wf := gather_S100000x256_S2048x200x1_S2048x200x256_2_0_n_n_0_2_1256_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf
def dot_S6400x256_S256x256_S6400x256_1_0_0_1_n_n : DotDims S6400x256 S256x256 S6400x256 where
  lhsContracting := [1]
  rhsContracting := [0]
  lhsNonContracting := [0]
  rhsNonContracting := [1]
  lhsBatch := []
  rhsBatch := []
  wf := dot_S6400x256_S256x256_S6400x256_1_0_0_1_n_n_wf

abbrev win0_0 : Pipeline.Window sig grid0 :=
  Pipeline.Window.ofSpec (Memref.whole main_v6) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S32x200x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S200x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S200x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S32x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048 : Shape := ⟨1, ![2048]⟩
abbrev S2048x200 : Shape := ⟨2, ![2048, 200]⟩
abbrev S100000x256 : Shape := ⟨2, ![100000, 256]⟩
abbrev S256x256 : Shape := ⟨2, ![256, 256]⟩
abbrev S200x256 : Shape := ⟨2, ![200, 256]⟩
abbrev S1 : Shape := ⟨1, ![1]⟩
abbrev S_ : Shape := ⟨0, ![]⟩
abbrev S2048x1 : Shape := ⟨2, ![2048, 1]⟩
abbrev S2048x256 : Shape := ⟨2, ![2048, 256]⟩
abbrev S2048x200x1 : Shape := ⟨3, ![2048, 200, 1]⟩
abbrev S2048x200x256 : Shape := ⟨3, ![2048, 200, 256]⟩
abbrev S1x200x256 : Shape := ⟨3, ![1, 200, 256]⟩
abbrev S2048x1x256 : Shape := ⟨3, ![2048, 1, 256]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S2048, .i32⟩
  | 1 => ⟨S2048, .i32⟩
  | 2 => ⟨S2048x200, .i32⟩
  | 3 => ⟨S2048, .i32⟩
  | 4 => ⟨S2048, .i32⟩
  | 5 => ⟨S100000x256, .f32⟩
  | 6 => ⟨S100000x256, .f32⟩
  | 7 => ⟨S256x256, .f32⟩
  | 8 => ⟨S256x256, .f32⟩
  | 9 => ⟨S200x256, .f32⟩
  | 10 => ⟨S200x256, .f32⟩
  | 11 => ⟨S1, .f32⟩
  | 12 => ⟨S_, .i32⟩
  | 13 => ⟨S2048, .i32⟩
  | 14 => ⟨S2048, .i1⟩
  | 15 => ⟨S_, .i32⟩
  | 16 => ⟨S2048, .i32⟩
  | 17 => ⟨S2048, .i32⟩
  | 18 => ⟨S2048, .i32⟩
  | 19 => ⟨S2048x1, .i32⟩
  | 20 => ⟨S2048x256, .f32⟩
  | 21 => ⟨S2048x256, .f32⟩
  | 22 => ⟨S_, .f32⟩
  | 23 => ⟨S2048, .f32⟩
  | 24 => ⟨S2048x1, .f32⟩
  | 25 => ⟨S2048x1, .f32⟩
  | 26 => ⟨S_, .f32⟩
  | 27 => ⟨S2048x1, .f32⟩
  | 28 => ⟨S2048x1, .f32⟩
  | 29 => ⟨S_, .f32⟩
  | 30 => ⟨S2048x1, .f32⟩
  | 31 => ⟨S2048x1, .f32⟩
  | 32 => ⟨S_, .f32⟩
  | 33 => ⟨S2048x1, .f32⟩
  | 34 => ⟨S2048x1, .f32⟩
  | 35 => ⟨S2048x256, .f32⟩
  | 36 => ⟨S2048x256, .f32⟩
  | 37 => ⟨S_, .i32⟩
  | 38 => ⟨S2048, .i32⟩
  | 39 => ⟨S2048, .i1⟩
  | 40 => ⟨S_, .i32⟩
  | 41 => ⟨S2048, .i32⟩
  | 42 => ⟨S2048, .i32⟩
  | 43 => ⟨S2048, .i32⟩
  | 44 => ⟨S2048x1, .i32⟩
  | 45 => ⟨S2048x256, .f32⟩
  | 46 => ⟨S2048x256, .f32⟩
  | 47 => ⟨S_, .f32⟩
  | 48 => ⟨S2048, .f32⟩
  | 49 => ⟨S2048x1, .f32⟩
  | 50 => ⟨S2048x1, .f32⟩
  | 51 => ⟨S_, .f32⟩
  | 52 => ⟨S2048x1, .f32⟩
  | 53 => ⟨S2048x1, .f32⟩
  | 54 => ⟨S_, .f32⟩
  | 55 => ⟨S2048x1, .f32⟩
  | 56 => ⟨S2048x1, .f32⟩
  | 57 => ⟨S_, .f32⟩
  | 58 => ⟨S2048x1, .f32⟩
  | 59 => ⟨S2048x1, .f32⟩
  | 60 => ⟨S2048x256, .f32⟩
  | 61 => ⟨S2048x256, .f32⟩
  | 62 => ⟨S_, .i32⟩
  | 63 => ⟨S2048x200, .i32⟩
  | 64 => ⟨S2048x200, .i1⟩
  | 65 => ⟨S_, .i32⟩
  | 66 => ⟨S2048x200, .i32⟩
  | 67 => ⟨S2048x200, .i32⟩
  | 68 => ⟨S2048x200, .i32⟩
  | 69 => ⟨S2048x200x1, .i32⟩
  | 70 => ⟨S2048x200x256, .f32⟩
  | 71 => ⟨S2048x200x256, .f32⟩
  | 72 => ⟨S_, .f32⟩
  | 73 => ⟨S2048x200, .f32⟩
  | 74 => ⟨S2048x200x1, .f32⟩
  | 75 => ⟨S2048x200x1, .f32⟩
  | 76 => ⟨S_, .f32⟩
  | 77 => ⟨S2048x200x1, .f32⟩
  | 78 => ⟨S2048x200x1, .f32⟩
  | 79 => ⟨S_, .f32⟩
  | 80 => ⟨S2048x200x1, .f32⟩
  | 81 => ⟨S2048x200x1, .f32⟩
  | 82 => ⟨S_, .f32⟩
  | 83 => ⟨S2048x200x1, .f32⟩
  | 84 => ⟨S2048x200x1, .f32⟩
  | 85 => ⟨S2048x200x256, .f32⟩
  | 86 => ⟨S2048x200x256, .f32⟩
  | 87 => ⟨S2048x200x256, .f32⟩
  | 88 => ⟨S200x256, .f32⟩
  | 89 => ⟨S1x200x256, .f32⟩
  | 90 => ⟨S2048x200x256, .f32⟩
  | 91 => ⟨S2048x200x256, .f32⟩
  | 92 => ⟨S1x200x256, .f32⟩
  | 93 => ⟨S2048x200x256, .f32⟩
  | 94 => ⟨S2048x200x256, .f32⟩
  | 95 => ⟨S2048x200x256, .f32⟩
  | 96 => ⟨S_, .f32⟩
  | 97 => ⟨S2048x256, .f32⟩
  | 98 => ⟨S_, .f32⟩
  | 99 => ⟨S2048x256, .f32⟩
  | 100 => ⟨S2048x256, .f32⟩
  | 101 => ⟨S2048x1x256, .f32⟩
  | 102 => ⟨S2048x200x256, .f32⟩
  | 103 => ⟨S2048x200x256, .f32⟩
  | 104 => ⟨S2048x200x256, .f32⟩
  | 105 => ⟨S_, .f32⟩
  | 106 => ⟨S2048x256, .f32⟩
  | 107 => ⟨S2048x1x256, .f32⟩
  | 108 => ⟨S2048x200x256, .f32⟩
  | 109 => ⟨S2048x200x256, .f32⟩
  | 110 => ⟨S2048x200x256, .f32⟩
  | 111 => ⟨S_, .f32⟩
  | 112 => ⟨S2048x256, .f32⟩
  | 113 => ⟨S1x1, .f32⟩
  | 114 => ⟨S2048x256, .f32⟩
  | 115 => ⟨S2048x256, .f32⟩
  | 116 => ⟨S2048x256, .f32⟩
  | 117 => ⟨S_, .f32⟩
  | 118 => ⟨S2048, .f32⟩
  | 119 => ⟨S2048x1, .f32⟩
  | 120 => ⟨S2048x1, .f32⟩
  | 121 => ⟨S_, .f32⟩
  | 122 => ⟨S2048x1, .f32⟩
  | 123 => ⟨S2048x1, .f32⟩
  | 124 => ⟨S2048x256, .f32⟩
  | 125 => ⟨S2048x256, .f32⟩
  | 126 => ⟨S2048x256, .f32⟩
  | 127 => ⟨S_, .f32⟩
  | _ => ⟨S2048, .i32⟩

abbrev hbmTy0_1 (i : Nat) : BufTy := match i % 128 with
  | 0 => ⟨S2048, .f32⟩
  | 1 => ⟨S2048x1, .f32⟩
  | 2 => ⟨S2048x1, .f32⟩
  | 3 => ⟨S_, .f32⟩
  | 4 => ⟨S2048x1, .f32⟩
  | 5 => ⟨S2048x1, .f32⟩
  | 6 => ⟨S2048x256, .f32⟩
  | 7 => ⟨S2048x256, .f32⟩
  | 8 => ⟨S2048x256, .f32⟩
  | 9 => ⟨S2048x256, .f32⟩
  | 10 => ⟨S_, .f32⟩
  | 11 => ⟨S2048, .f32⟩
  | 12 => ⟨S2048x1, .f32⟩
  | 13 => ⟨S2048x1, .f32⟩
  | 14 => ⟨S_, .f32⟩
  | 15 => ⟨S2048x1, .f32⟩
  | 16 => ⟨S2048x1, .f32⟩
  | 17 => ⟨S2048x256, .f32⟩
  | 18 => ⟨S2048x256, .f32⟩
  | 19 => ⟨S2048x256, .f32⟩
  | 20 => ⟨S2048x256, .f32⟩
  | 21 => ⟨S_, .f32⟩
  | 22 => ⟨S2048, .f32⟩
  | 23 => ⟨S2048, .f32⟩
  | _ => ⟨S2048, .i32⟩

abbrev hbmTy (i : Nat) : BufTy := match i / 128 with
  | 0 => hbmTy0_0 i
  | 1 => hbmTy0_1 i
  | _ => ⟨S2048, .i32⟩

abbrev bufTy : (tb : Table) → Fin (tcTables nBuf tb) → BufTy
  | .hbm, ⟨i, _⟩ => hbmTy i
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_call0_v2 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call1_v0 : Ref sig .tc := ⟨.hbm, 46, rfl⟩
abbrev main_call1_cst : Ref sig .tc := ⟨.hbm, 47, rfl⟩
abbrev main_call1_v1 : Ref sig .tc := ⟨.hbm, 48, rfl⟩
abbrev main_call1_v2 : Ref sig .tc := ⟨.hbm, 49, rfl⟩
abbrev main_v23 : Ref sig .tc := ⟨.hbm, 50, rfl⟩
abbrev main_cst_5 : Ref sig .tc := ⟨.hbm, 51, rfl⟩
abbrev main_v24 : Ref sig .tc := ⟨.hbm, 52, rfl⟩
abbrev main_v25 : Ref sig .tc := ⟨.hbm, 53, rfl⟩
abbrev main_cst_6 : Ref sig .tc := ⟨.hbm, 54, rfl⟩
abbrev main_v26 : Ref sig .tc := ⟨.hbm, 55, rfl⟩
abbrev main_v27 : Ref sig .tc := ⟨.hbm, 56, rfl⟩
abbrev main_cst_7 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_8 : Ref sig .tc := ⟨.hbm, 62, rfl⟩
abbrev main_v32 : Ref sig .tc := ⟨.hbm, 63, rfl⟩
abbrev main_v33 : Ref sig .tc := ⟨.hbm, 64, rfl⟩
abbrev main_c_9 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_call2_v0 : Ref sig .tc := ⟨.hbm, 71, rfl⟩
abbrev main_call2_cst : Ref sig .tc := ⟨.hbm, 72, rfl⟩
abbrev main_call2_v1 : Ref sig .tc := ⟨.hbm, 73, rfl⟩
abbrev main_call2_v2 : Ref sig .tc := ⟨.hbm, 74, rfl⟩
abbrev main_v39 : Ref sig .tc := ⟨.hbm, 75, rfl⟩
abbrev main_cst_10 : Ref sig .tc := ⟨.hbm, 76, rfl⟩
abbrev main_v40 : Ref sig .tc := ⟨.hbm, 77, rfl⟩
abbrev main_v41 : Ref sig .tc := ⟨.hbm, 78, rfl⟩
abbrev main_cst_11 : Ref sig .tc := ⟨.hbm, 79, rfl⟩
abbrev main_v42 : Ref sig .tc := ⟨.hbm, 80, rfl⟩
abbrev main_v43 : Ref sig .tc := ⟨.hbm, 81, rfl⟩
abbrev main_cst_12 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_13 : Ref sig .tc := ⟨.hbm, 96, rfl⟩
abbrev main_v57 : Ref sig .tc := ⟨.hbm, 97, rfl⟩
abbrev main_cst_14 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_15 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_16 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_call3_v0 : Ref sig .tc := ⟨.hbm, 116, rfl⟩
abbrev main_call3_cst : Ref sig .tc := ⟨.hbm, 117, rfl⟩
abbrev main_call3_v1 : Ref sig .tc := ⟨.hbm, 118, rfl⟩
abbrev main_call3_v2 : Ref sig .tc := ⟨.hbm, 119, rfl⟩
abbrev main_v73 : Ref sig .tc := ⟨.hbm, 120, rfl⟩
abbrev main_cst_17 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_call4_v0 : Ref sig .tc := ⟨.hbm, 126, rfl⟩
abbrev main_call4_cst : Ref sig .tc := ⟨.hbm, 127, rfl⟩
abbrev main_call4_v1 : Ref sig .tc := ⟨.hbm, 128, rfl⟩
abbrev main_call4_v2 : Ref sig .tc := ⟨.hbm, 129, rfl⟩
abbrev main_v78 : Ref sig .tc := ⟨.hbm, 130, rfl⟩
abbrev main_cst_18 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_call5_v0 : Ref sig .tc := ⟨.hbm, 137, rfl⟩
abbrev main_call5_cst : Ref sig .tc := ⟨.hbm, 138, rfl⟩
abbrev main_call5_v1 : Ref sig .tc := ⟨.hbm, 139, rfl⟩
abbrev main_call5_v2 : Ref sig .tc := ⟨.hbm, 140, rfl⟩
abbrev main_v84 : Ref sig .tc := ⟨.hbm, 141, rfl⟩
abbrev main_cst_19 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_20 : Ref sig .tc := ⟨.hbm, 149, rfl⟩
abbrev main_v91 : Ref sig .tc := ⟨.hbm, 150, rfl⟩
abbrev main_v92 : Ref sig .tc := ⟨.hbm, 151, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  reducesTo_S2048x256_S2048_d1 : S2048x256.ReducesTo [1] S2048
  h_S_ : 0 < S_.numel
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  bcast_S_S2048x200 : S_.BroadcastsInDim S2048x200 (![] : Fin 0 → Fin S2048x200.rank)
  bcast_S2048x200_S2048x200x1_0_1 : S2048x200.BroadcastsInDim S2048x200x1 (![0, 1] : Fin 2 → Fin S2048x200x1.rank)
  reducesTo_S2048x200x256_S2048x200_d2 : S2048x200x256.ReducesTo [2] S2048x200
  bcast_S_S2048x200x1 : S_.BroadcastsInDim S2048x200x1 (![] : Fin 0 → Fin S2048x200x1.rank)
  bcast_S2048x200x1_S2048x200x256_0_1_2 : S2048x200x1.BroadcastsInDim S2048x200x256 (![0, 1, 2] : Fin 3 → Fin S2048x200x256.rank)
  bcast_S200x256_S1x200x256_1_2 : S200x256.BroadcastsInDim S1x200x256 (![1, 2] : Fin 2 → Fin S1x200x256.rank)
  bcast_S1x200x256_S2048x200x256_0_1_2 : S1x200x256.BroadcastsInDim S2048x200x256 (![0, 1, 2] : Fin 3 → Fin S2048x200x256.rank)
  reducesTo_S2048x200x256_S2048x256_d1 : S2048x200x256.ReducesTo [1] S2048x256
  bcast_S_S2048x256 : S_.BroadcastsInDim S2048x256 (![] : Fin 0 → Fin S2048x256.rank)
  bcast_S2048x256_S2048x1x256_0_2 : S2048x256.BroadcastsInDim S2048x1x256 (![0, 2] : Fin 2 → Fin S2048x1x256.rank)
  bcast_S2048x1x256_S2048x200x256_0_1_2 : S2048x1x256.BroadcastsInDim S2048x200x256 (![0, 1, 2] : Fin 3 → Fin S2048x200x256.rank)
  bcast_S1_S1x1_1 : S1.BroadcastsInDim S1x1 (![1] : Fin 1 → Fin S1x1.rank)
  bcast_S1x1_S2048x256_0_1 : S1x1.BroadcastsInDim S2048x256 (![0, 1] : Fin 2 → Fin S2048x256.rank)
  gather_S100000x256_S2048x1_S2048x256_1_0_n_n_0_1_1256_wf : GatherDims.WF S100000x256 S2048x1 S2048x256 [1] [0] [] [0] [] 1 ![1, 256]
  gather_S100000x256_S2048x200x1_S2048x200x256_2_0_n_n_0_2_1256_wf : GatherDims.WF S100000x256 S2048x200x1 S2048x200x256 [2] [0] [] [0] [] 2 ![1, 256]
  dot_S2048x200x256_S256x256_S2048x200x256_2_0_01_1_n_n_wf : DotDims.WF S2048x200x256 S256x256 S2048x200x256 [2] [0] [0, 1] [1] [] []
  dot_S200x256_S256x256_S200x256_1_0_0_1_n_n_wf : DotDims.WF S200x256 S256x256 S200x256 [1] [0] [0] [1] [] []

variable [Facts₀]

def gather_S100000x256_S2048x1_S2048x256_1_0_n_n_0_1_1256 : GatherDims S100000x256 S2048x1 S2048x256 where
  offsetDims := [1]
  collapsedSliceDims := [0]
  operandBatchingDims := []
  startIndicesBatchingDims := []
  startIndexMap := [0]
  indexVectorDim := 1
  sliceSizes := ![1, 256]
  wf := gather_S100000x256_S2048x1_S2048x256_1_0_n_n_0_1_1256_wf
def gather_S100000x256_S2048x200x1_S2048x200x256_2_0_n_n_0_2_1256 : GatherDims S100000x256 S2048x200x1 S2048x200x256 where
  offsetDims := [2]
  collapsedSliceDims := [0]
  operandBatchingDims := []
  startIndicesBatchingDims := []
  startIndexMap := [0]
  indexVectorDim := 2
  sliceSizes := ![1, 256]
  wf := gather_S100000x256_S2048x200x1_S2048x200x256_2_0_n_n_0_2_1256_wf
def dot_S2048x200x256_S256x256_S2048x200x256_2_0_01_1_n_n : DotDims S2048x200x256 S256x256 S2048x200x256 where
  lhsContracting := [2]
  rhsContracting := [0]
  lhsNonContracting := [0, 1]
  rhsNonContracting := [1]
  lhsBatch := []
  rhsBatch := []
  wf := dot_S2048x200x256_S256x256_S2048x200x256_2_0_01_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf

class Facts : Prop extends Facts₀ where

variable [Facts]
-- ==== Proof.Spec.lean ====
/-
  The pooled score of one batch row, on the extended reals.

  A row of the batch carries a user row U and a venue row V (features d < D), and a history of H venue rows X h.
  Every looked-up row is first brought to norm at most one (clip); the history is turned into activations
  z h e = tanh (∑ d, X h d · W d e + PW h e + B h e), a softmax over the history axis (feature by feature, the
  maximum folded from -∞ and subtracted) weights the history rows into one context row, to which the scalar a is
  added; and the score is the Euclidean norm of unit(U) + unit(context) - unit(V), each row divided by its norm
  kept above ε. The constants 1, ε and -∞ stay the f32 words both programs print: no value of theirs is needed.
-/
import Idealize.ShloMosaic.PureOps.Ideal
import Idealize.ShloMosaic.Lib.ValueIdx

noncomputable section

namespace Cert.PoolSpec

open Idealize.ShloMosaic

/-- ε, the floor under every norm that divides. -/
def eps : EReal := Ideal.ofBits .f32 0x2B8CBCCC#32
/-- 1. -/
def one : EReal := Ideal.ofBits .f32 0x3F800000#32
/-- -∞, where a maximum starts. -/
def ninf : EReal := Ideal.ofBits .f32 0xFF800000#32

variable {H D : ℕ}

/-- The Euclidean norm of a row. -/
def norm (x : Fin D → EReal) : EReal := Ideal.sqrt (∑ d, x d * x d)

/-- The factor min(1, 1 / max(‖x‖, ε)) that brings a row's norm down to at most one. -/
def clipFactor (x : Fin D → EReal) : EReal := min one (Ideal.div one (max (norm x) eps))

/-- A row brought to norm at most one. -/
def clip (x : Fin D → EReal) (d : Fin D) : EReal := x d * clipFactor x

/-- A row divided by its norm, the norm kept above ε. -/
def unit (x : Fin D → EReal) (d : Fin D) : EReal := Ideal.div (x d) (max (norm x) eps)

/-- The clipped history. -/
def hist (X : Fin H → Fin D → EReal) (h : Fin H) : Fin D → EReal := clip (X h)

/-- The activation of history entry h at feature e. -/
def act (X : Fin H → Fin D → EReal) (W : Fin D → Fin D → EReal) (PW B : Fin H → Fin D → EReal) (h : Fin H) (e : Fin D) : EReal :=
  Ideal.tanh (((∑ d, X h d * W d e) + PW h e) + B h e)

/-- The largest activation over the history at feature e, folded from -∞. -/
def top (z : Fin H → Fin D → EReal) (e : Fin D) : EReal :=
  (Finset.univ : Finset (Fin H)).fold max ninf (fun h => z h e)

/-- The exponential of an activation below the top one. -/
def ex (z : Fin H → Fin D → EReal) (h : Fin H) (e : Fin D) : EReal := Ideal.exp (z h e - top z e)

/-- The softmax weight of history entry h at feature e. -/
def weight (z : Fin H → Fin D → EReal) (h : Fin H) (e : Fin D) : EReal := Ideal.div (ex z h e) (∑ h', ex z h' e)

/-- The history rows weighted into one row, plus the scalar a. -/
def pooled (z X : Fin H → Fin D → EReal) (a : EReal) (e : Fin D) : EReal := (∑ h, weight z h e * X h e) + a

/-- The context row of a batch row: its clipped history pooled under the softmax of its activations. -/
def ctx (X : Fin H → Fin D → EReal) (W : Fin D → Fin D → EReal) (PW B : Fin H → Fin D → EReal) (a : EReal) : Fin D → EReal :=
  pooled (act (hist X) W PW B) (hist X) a

/-- unit(u) + unit(l) - unit(v) at feature e. -/
def diff (u v l : Fin D → EReal) (e : Fin D) : EReal := (unit u e + unit l e) - unit v e

/-- The norm of unit(u) + unit(l) - unit(v). -/
def dist (u v l : Fin D → EReal) : EReal := Ideal.sqrt (∑ e, diff u v l e * diff u v l e)

/-- The score of one batch row. -/
def score (U V : Fin D → EReal) (X : Fin H → Fin D → EReal) (W : Fin D → Fin D → EReal) (PW B : Fin H → Fin D → EReal) (a : EReal) : EReal :=
  dist (clip U) (clip V) (ctx X W PW B a)

end Cert.PoolSpec

end
-- ==== Proof.Arrays.lean ====
/-
  The scores of a whole batch as functions of the arrays: row b of the result is the score of row b of the looked-up
  user rows Ug, venue rows Vg and histories Hg, under the weights W, the addends PW and B and the scalar a. The kernel
  leaves them as a column [N, 1] (then flattened by the host), the reference as a vector [N]; a block of 32 rows is the
  same function at N = 32.
-/
import proofs.«168373_j64742337020083_1_alg».proof.Proof.Spec
import Idealize.ShloMosaic.Lib.ValueIdx

noncomputable section

namespace Cert.PoolSpec

open Idealize.ShloMosaic Idealize.ShloMosaic.ValueIdx

variable {N : ℕ}

/-- The score of batch row b. -/
def rowScore (Ug Vg : (⟨2, ![N, 256]⟩ : Shape).Idx → EReal) (Hg : (⟨3, ![N, 200, 256]⟩ : Shape).Idx → EReal)
    (W : (⟨2, ![256, 256]⟩ : Shape).Idx → EReal) (PW B : (⟨2, ![200, 256]⟩ : Shape).Idx → EReal) (a : EReal) (b : Fin N) : EReal :=
  score (fun d => Ug (ix2 b d)) (fun d => Vg (ix2 b d)) (fun h d => Hg (ix3 b h d)) (fun d e => W (ix2 d e))
    (fun h e => PW (ix2 h e)) (fun h e => B (ix2 h e)) a

/-- The scores as a column. -/
def scoreCol (Ug Vg : (⟨2, ![N, 256]⟩ : Shape).Idx → EReal) (Hg : (⟨3, ![N, 200, 256]⟩ : Shape).Idx → EReal)
    (W : (⟨2, ![256, 256]⟩ : Shape).Idx → EReal) (PW B : (⟨2, ![200, 256]⟩ : Shape).Idx → EReal) (a : EReal) :
    (⟨2, ![N, 1]⟩ : Shape).Idx → EReal :=
  fun j => rowScore Ug Vg Hg W PW B a ⟨(j 0).val, (j 0).isLt⟩

/-- The scores as a vector. -/
def scoreVec (Ug Vg : (⟨2, ![N, 256]⟩ : Shape).Idx → EReal) (Hg : (⟨3, ![N, 200, 256]⟩ : Shape).Idx → EReal)
    (W : (⟨2, ![256, 256]⟩ : Shape).Idx → EReal) (PW B : (⟨2, ![200, 256]⟩ : Shape).Idx → EReal) (a : EReal) :
    (⟨1, ![N]⟩ : Shape).Idx → EReal :=
  fun i => rowScore Ug Vg Hg W PW B a ⟨(i 0).val, (i 0).isLt⟩

theorem scoreCol_apply (Ug Vg : (⟨2, ![N, 256]⟩ : Shape).Idx → EReal) (Hg : (⟨3, ![N, 200, 256]⟩ : Shape).Idx → EReal)
    (W : (⟨2, ![256, 256]⟩ : Shape).Idx → EReal) (PW B : (⟨2, ![200, 256]⟩ : Shape).Idx → EReal) (a : EReal)
    (j : (⟨2, ![N, 1]⟩ : Shape).Idx) (b : Fin N) (hb : (j 0).val = b.val) :
    scoreCol Ug Vg Hg W PW B a j = rowScore Ug Vg Hg W PW B a b := by
  unfold scoreCol
  exact congrArg (rowScore Ug Vg Hg W PW B a) (Fin.ext hb)

theorem scoreVec_apply (Ug Vg : (⟨2, ![N, 256]⟩ : Shape).Idx → EReal) (Hg : (⟨3, ![N, 200, 256]⟩ : Shape).Idx → EReal)
    (W : (⟨2, ![256, 256]⟩ : Shape).Idx → EReal) (PW B : (⟨2, ![200, 256]⟩ : Shape).Idx → EReal) (a : EReal)
    (i : (⟨1, ![N]⟩ : Shape).Idx) (b : Fin N) (hb : (i 0).val = b.val) :
    scoreVec Ug Vg Hg W PW B a i = rowScore Ug Vg Hg W PW B a b := by
  unfold scoreVec
  exact congrArg (rowScore Ug Vg Hg W PW B a) (Fin.ext hb)

end Cert.PoolSpec

end
-- ==== Proof.LibLayout.lean ====
/-
  Layout operations of small shapes read at an index, in the forms a row-wise normalisation needs: a vector made a
  column and a column spread over the columns of a matrix (the two halves of a `keepdims` reduction's broadcast), a
  row vector made a one-row matrix and spread over the rows, and a scalar spread over any shape. Each says which
  operand entry the result reads at `(p, c)`.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape (`broadcast_in_dim` with no axis) reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector `[b]` made the one row of `[1, b]` (`broadcast_in_dim` on axis 1) reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` spread over `a` rows (`broadcast_in_dim` on axes 0, 1) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` (`broadcast_in_dim` on axis 0) reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread over `b` columns (`broadcast_in_dim` on axes 0, 1) reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.LibLayoutB.lean ====
/-
  More layout operations read at an index, by coordinates: the casts and broadcasts of ranks 2–4 by which a kernel body
  spreads a row over a block (an [a, b] matrix as [a, 1, b], a [c] vector as [1, 1, c], either broadcast to [a, b, c]) and
  flattens or unflattens the two leading axes of a rank-3 block ([a, b, c] as [a·b, c] and back).
-/
import Idealize.ShloMosaic.Lib.ValueIdx
import Idealize.ShloMosaic.Lib.ValueLayout
import Idealize.ShloMosaic.Lib.Pipeline.Value

namespace Cert.LibLayoutB

open Idealize.ShloMosaic Idealize.ShloMosaic.ValueIdx

variable {α : Type}

/-- An [a, b] matrix cast to [a, 1, b] reads, at (p, u, q), the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- A [c] vector cast to [1, 1, c] reads, at (u, v, r), the operand at r. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    simp only [hu, hv, Nat.zero_mul, Nat.zero_add, Nat.mul_one, Nat.add_zero])

/-- An [a, 1, c] array broadcast to [a, b, c] reads, at (p, q, r), the operand at (p, 0, r). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A [1, b, c] array broadcast to [a, b, c] reads, at (p, q, r), the operand at (0, q, r). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A [1, 1, c] array broadcast to [a, b, c] reads, at (p, q, r), the operand at (0, 0, r). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) := by
  refine broadcastTo_apply x h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, b, c] block flattened to [m, c], m = a·b, reads, at (p·b + q, r), the operand at (p, q, r). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (r : Fin c) (n : Fin m)
    (hn : n.val = p.val * b + q.val) :
    shapeCast ⟨2, ![m, c]⟩ x h (ix2 n r) = x (ix3 p q r) :=
  shapeCast_apply x h _ _ (by
    rw [Shape.rowMajor_val_three, Shape.rowMajor_val_two]
    show (p.val * b + q.val) * c + r.val = n.val * c + r.val
    rw [hn])

/-- An [m, c] matrix, m = a·b, unflattened to [a, b, c] reads, at (p, q, r), the operand at (p·b + q, r). -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (r : Fin c) (n : Fin m)
    (hn : n.val = p.val * b + q.val) :
    shapeCast ⟨3, ![a, b, c]⟩ x h (ix3 p q r) = x (ix2 n r) :=
  shapeCast_apply x h _ _ (by
    rw [Shape.rowMajor_val_three, Shape.rowMajor_val_two]
    show n.val * c + r.val = (p.val * b + q.val) * c + r.val
    rw [hn])

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- A [1, 1, c] array cast to [1, c] reads, at (u, r), the operand at (0, 0, r). -/
theorem shapeCast_11c_1c_apply {c : ℕ} (x : (⟨3, ![1, 1, c]⟩ : Shape).Idx → α)
    (h : (⟨3, ![1, 1, c]⟩ : Shape).ShapeCasts ⟨2, ![1, c]⟩) (u : Fin 1) (r : Fin c) :
    shapeCast ⟨2, ![1, c]⟩ x h (ix2 u r) = x (ix3 (0 : Fin 1) (0 : Fin 1) r) :=
  shapeCast_apply x h _ _ (by
    have hu : u.val = 0 := by omega
    rw [Shape.rowMajor_val_three, Shape.rowMajor_val_two]
    show (0 * 1 + 0) * c + r.val = u.val * c + r.val
    simp only [hu, Nat.zero_mul, Nat.zero_add, Nat.mul_one, Nat.add_zero])

end Cert.LibLayoutB
-- ==== Proof.LibLanes.lean ====
/-
  Grouped lanes. An array of shape [a, b, c] is read as a rows of b groups of c lanes each. A reduction over the
  lane axis that keeps the axis (jnp's keepdims) leaves one entry per group, carried as a column of shape [a, b, 1]
  and spread back over the c lanes of its group. This file reads those layout steps at an index given by
  coordinates, and reads a lane minimum or maximum — a kernel's vector reduction and the host's reduce alike — as
  the fold of min or max, from the value of the initial word, over the lane coordinate of one group.
-/
import Idealize.ShloMosaic.Lib.Pipeline.Value
import Idealize.ShloMosaic.Lib.ValueIdx
import Idealize.ShloMosaic.PureOps.Ideal.Laws
import Idealize.ShloMosaic.PureOps.Reduce

noncomputable section

namespace Cert.Lanes

open Idealize.ShloMosaic Idealize.ShloMosaic.ValueIdx

variable {α : Type} {a b c : Nat}

/-! ## The per-group column: [a, b] → [a, b, 1] → [a, b, c] -/

/-- A matrix of per-group values cast to a column per group, read at (p, g, 0), is the matrix at (p, g). -/
theorem shapeCast_ab_ab1_apply (x : (⟨2, ![a, b]⟩ : Shape).Idx → α)
    (h : (⟨2, ![a, b]⟩ : Shape).ShapeCasts ⟨3, ![a, b, 1]⟩) (p : Fin a) (g : Fin b) :
    shapeCast ⟨3, ![a, b, 1]⟩ x h (ix3 p g (0 : Fin 1)) = x (ix2 p g) :=
  shapeCast_apply x h (ix3 p g (0 : Fin 1)) (ix2 p g) (by
    rw [Shape.rowMajor_val_two, Shape.rowMajor_val_three]
    show p.val * b + g.val = (p.val * b + g.val) * 1 + 0
    rw [Nat.mul_one, Nat.add_zero])

/-- A column per group spread over the group's lanes, read at (p, g, l), is the column's entry at (p, g, 0):
    every lane of a group sees its group's value. -/
theorem broadcastTo_ab1_abc_apply (x : (⟨3, ![a, b, 1]⟩ : Shape).Idx → α)
    (h : (⟨3, ![a, b, 1]⟩ : Shape).Broadcasts ⟨3, ![a, b, c]⟩) (p : Fin a) (g : Fin b) (l : Fin c) :
    broadcastTo ⟨3, ![a, b, c]⟩ x h (ix3 p g l) = x (ix3 p g (0 : Fin 1)) := by
  refine broadcastTo_apply x h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ =>
    show (0 : Nat) = if (1 : Nat) = 1 then 0 else l.val
    rw [if_pos rfl]

/-! ## A group's lanes as a fold over the lane coordinate -/

/-- The minimum of group (p, g)'s lanes, folded from the value of the word `w`. -/
def laneMin (w : BitVec 32) (z : (⟨3, ![a, b, c]⟩ : Shape).Idx → EReal) (p : Fin a) (g : Fin b) : EReal :=
  (Finset.univ : Finset (Fin c)).fold min (Ideal.ofBits .f32 w) (fun l => z (ix3 p g l))

/-- The maximum of group (p, g)'s lanes, folded from the value of the word `w`. -/
def laneMax (w : BitVec 32) (z : (⟨3, ![a, b, c]⟩ : Shape).Idx → EReal) (p : Fin a) (g : Fin b) : EReal :=
  (Finset.univ : Finset (Fin c)).fold max (Ideal.ofBits .f32 w) (fun l => z (ix3 p g l))

/-- The source index over group (p, g) with lane coordinate `k` is (p, g, k). -/
theorem lift_lane (h : (⟨3, ![a, b, c]⟩ : Shape).Reduces [2] ⟨2, ![a, b]⟩) (p : Fin a) (g : Fin b)
    (k : Fin ((⟨3, ![a, b, c]⟩ : Shape).size 2)) :
    h.lift (ix2 p g) k = ix3 p g (⟨k.val, k.isLt⟩ : Fin c) := by
  funext ax; apply Fin.ext
  match ax with
  | ⟨0, _⟩ => rfl
  | ⟨1, _⟩ => rfl
  | ⟨2, _⟩ => rfl

/-- A kernel's lane minimum (a vector reduction over the last axis), read at group (p, g) on the extended reals. -/
theorem multiReduction_minimumf_lane (src : FVec Ideal ⟨3, ![a, b, c]⟩ .f32) (w : BitVec 32)
    (h : (⟨3, ![a, b, c]⟩ : Shape).Reduces [2] ⟨2, ![a, b]⟩) (hφ : FKind.Formats .f32)
    (hacc : w = FKind.minimumf.neutral .f32 hφ) (p : Fin a) (g : Fin b) :
    multiReduction .minimumf [2] ⟨2, ![a, b]⟩ src w h hφ hacc (ix2 p g) = laneMin w src p g := by
  rw [multiReduction_minimumf_eq_fold]
  refine (h.fold_filter_drop_single _ _ src (ix2 p g)).trans ?_
  exact congrArg (fun f => Finset.fold min (Ideal.ofBits .f32 w) f (Finset.univ : Finset (Fin c)))
    (funext fun k => congrArg src (lift_lane h p g k))

/-- A kernel's lane maximum, read at group (p, g) on the extended reals. -/
theorem multiReduction_maximumf_lane (src : FVec Ideal ⟨3, ![a, b, c]⟩ .f32) (w : BitVec 32)
    (h : (⟨3, ![a, b, c]⟩ : Shape).Reduces [2] ⟨2, ![a, b]⟩) (hφ : FKind.Formats .f32)
    (hacc : w = FKind.maximumf.neutral .f32 hφ) (p : Fin a) (g : Fin b) :
    multiReduction .maximumf [2] ⟨2, ![a, b]⟩ src w h hφ hacc (ix2 p g) = laneMax w src p g := by
  rw [multiReduction_maximumf_eq_fold]
  refine (h.fold_filter_drop_single _ _ src (ix2 p g)).trans ?_
  exact congrArg (fun f => Finset.fold max (Ideal.ofBits .f32 w) f (Finset.univ : Finset (Fin c)))
    (funext fun k => congrArg src (lift_lane h p g k))

/-- The host's lane minimum (a reduce with a minimum body over the last axis, from a scalar initial value holding
    the word `w`), read at group (p, g) on the extended reals: the same fold. -/
theorem hostReduce_minimumf_lane (x : FVec Ideal ⟨3, ![a, b, c]⟩ .f32) (w : BitVec 32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (g : Fin b) :
    Host.reduce FloatOps.minimumf x (constant (F := Ideal) (⟨0, ![]⟩ : Shape) .f32 w) h' hu (ix2 p g) = laneMin w x p g := by
  rw [Host.reduce_eq_fold_single FloatOps.minimumf x _ h' h hu]
  exact congrArg (fun f => Finset.fold min (Ideal.ofBits .f32 w) f (Finset.univ : Finset (Fin c)))
    (funext fun k => congrArg x (lift_lane h p g k))

/-- The host's lane maximum, read at group (p, g) on the extended reals. -/
theorem hostReduce_maximumf_lane (x : FVec Ideal ⟨3, ![a, b, c]⟩ .f32) (w : BitVec 32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (g : Fin b) :
    Host.reduce FloatOps.maximumf x (constant (F := Ideal) (⟨0, ![]⟩ : Shape) .f32 w) h' hu (ix2 p g) = laneMax w x p g := by
  rw [Host.reduce_eq_fold_single FloatOps.maximumf x _ h' h hu]
  exact congrArg (fun f => Finset.fold max (Ideal.ofBits .f32 w) f (Finset.univ : Finset (Fin c)))
    (funext fun k => congrArg x (lift_lane h p g k))

end Cert.Lanes

end
-- ==== Proof.LibRowReduce.lean ====
/-
  Reductions along the rows of a matrix read at a row, on the extended reals (generic in the extents, imports only the
  library): the reduced index with the lane coordinate put back (`lift_row`, which also serves the host's reduce over
  the same axis), a kernel's lane maximum and lane sum over the last axis of an [a, b] array as the fold of max from the
  accumulator's value, or the sum, over the row's entries; and joining the initial value once more onto a maximum
  folded from it changes nothing.
-/
import Idealize.ShloMosaic.PureOps.Ideal.Laws
import Idealize.ShloMosaic.PureOps.Reduce
import Idealize.ShloMosaic.Lib.ValueIdx

noncomputable section

namespace Cert.LibRowReduce

open Idealize.ShloMosaic Idealize.ShloMosaic.ValueIdx

variable {a b : ℕ}

/-- The reduced index p with the lane coordinate l put back is (p, l). -/
theorem lift_row (h : (⟨2, ![a, b]⟩ : Shape).Reduces [1] (⟨1, ![a]⟩ : Shape)) (p : Fin a)
    (l : Fin ((⟨2, ![a, b]⟩ : Shape).size 1)) : h.lift (ix1 p) l = ix2 p (⟨l.val, l.isLt⟩ : Fin b) := by
  funext c; apply Fin.ext
  fin_cases c <;> rfl

/-- A kernel's lane maximum over the last axis, at row p: the fold of max from the accumulator's value over the row. -/
theorem laneMax_apply (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun l => src (ix2 p l)) := by
  refine (Ideal.multiReduction_maximumf_single src acc h hφ hacc (ix1 p)).trans ?_
  exact congrArg (fun f => Finset.fold max (Ideal.ofBits .f32 acc) f (Finset.univ : Finset (Fin b)))
    (funext fun l => congrArg src (lift_row h p l))

/-- A kernel's lane sum over the last axis, at row p: the sum over the row. -/
theorem laneSum_apply (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  exact Finset.sum_congr rfl fun l _ => congrArg src (lift_row h p l)

/-- A maximum folded from an initial value is above it, so joining the initial value once more changes nothing. -/
theorem max_fold_self {ι : Type*} (s : Finset ι) (c : EReal) (f : ι → EReal) : max c (s.fold max c f) = s.fold max c f :=
  max_eq_right (Finset.le_fold_max c |>.mpr (Or.inl le_rfl))

end Cert.LibRowReduce

end
-- ==== Proof.LibDot.lean ====
/-
  Contractions and layout operations read at an index, in the forms the score head and the distance head need:
  a one-axis contraction (a matrix product of either program) as a sum over `Fin K`, and row-major positions of small ranks.
-/
import Idealize.ShloMosaic.PureOps.Ideal.Laws
import Idealize.ShloMosaic.Lib.ValueIdx
import Idealize.ShloMosaic.Lib.Pipeline.Value

noncomputable section

namespace Cert.LibDot

open Idealize.ShloMosaic Idealize.ShloMosaic.ValueIdx

/-- A contraction over ONE axis of extent `K`, re-indexed by that axis's coordinate: whatever the two operand indices
    are at the contraction position whose one coordinate is `k` (`hL`, `hR`), the sum over the contraction shape is the sum
    over `Fin K` of the operands there. -/
theorem sum_contr_eq {sl sr so : Shape} (D : DotDims sl sr so) (K : ℕ) (hr : D.contr.rank = 1)
    (hs : D.contr.size ⟨0, by omega⟩ = K) (x : sl.Idx → EReal) (y : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, x (D.lhsIdx j k) * y (D.rhsIdx j k) = ∑ k : Fin K, x (L k) * y (R k) := by
  rw [← Equiv.sum_comp (contrEquiv1 D K hr hs).symm]
  exact Finset.sum_congr rfl fun k _ => by rw [hL, hR]

end Cert.LibDot

end
-- ==== Proof.LibMidAxis.lean ====
/-
  The middle axis of a rank-3 array. An array of shape [a, n, c] is read as a blocks of n rows of c lanes; a
  reduction over the row axis leaves one entry per block and lane. This file reads a kernel's vector reduction over that
  axis (a sum, and a maximum folded from the accumulator's value) and the host's reduce with a maximum body at (p, e) as
  the sum or fold over the row coordinate, reads a kernel's lane sum over the last axis at (p, g), and reads a matrix
  given a leading unit axis. Generic in the extents; imports only the library.
-/
import Idealize.ShloMosaic.Lib.Pipeline.Value
import Idealize.ShloMosaic.Lib.ValueIdx
import Idealize.ShloMosaic.PureOps.Ideal.Laws
import Idealize.ShloMosaic.PureOps.Reduce

noncomputable section

namespace Cert.LibMidAxis

open Idealize.ShloMosaic Idealize.ShloMosaic.ValueIdx

variable {α : Type} {a n c : Nat}

/-- The source index over block p and lane e with row coordinate k is (p, k, e). -/
theorem lift_mid (h : (⟨3, ![a, n, c]⟩ : Shape).Reduces [1] ⟨2, ![a, c]⟩) (p : Fin a) (e : Fin c)
    (k : Fin ((⟨3, ![a, n, c]⟩ : Shape).size 1)) :
    h.lift (ix2 p e) k = ix3 p (⟨k.val, k.isLt⟩ : Fin n) e := by
  funext ax; apply Fin.ext
  match ax with
  | ⟨0, _⟩ => rfl
  | ⟨1, _⟩ => rfl
  | ⟨2, _⟩ => rfl

/-- The source index over block p and row g with lane coordinate k is (p, g, k). -/
theorem lift_last (h : (⟨3, ![a, n, c]⟩ : Shape).Reduces [2] ⟨2, ![a, n]⟩) (p : Fin a) (g : Fin n)
    (k : Fin ((⟨3, ![a, n, c]⟩ : Shape).size 2)) :
    h.lift (ix2 p g) k = ix3 p g (⟨k.val, k.isLt⟩ : Fin c) := by
  funext ax; apply Fin.ext
  match ax with
  | ⟨0, _⟩ => rfl
  | ⟨1, _⟩ => rfl
  | ⟨2, _⟩ => rfl

/-- A kernel's sum over the row axis, at block p and lane e: the sum over the rows. -/
theorem midSum_apply (src : FVec Ideal ⟨3, ![a, n, c]⟩ .f32) (acc : BitVec 32)
    (h : (⟨3, ![a, n, c]⟩ : Shape).Reduces [1] ⟨2, ![a, c]⟩) (hφ : FKind.Formats .f32)
    (hacc : acc = FKind.add.neutral .f32 hφ) (p : Fin a) (e : Fin c) :
    multiReduction .add [1] ⟨2, ![a, c]⟩ src acc h hφ hacc (ix2 p e) = ∑ k : Fin n, src (ix3 p k e) := by
  refine (Ideal.multiReduction_add_single src acc h hφ hacc (ix2 p e)).trans ?_
  exact Finset.sum_congr rfl fun k _ => congrArg src (lift_mid h p e k)

/-- A kernel's maximum over the row axis, at block p and lane e: the fold of max from the accumulator's value. -/
theorem midMax_apply (src : FVec Ideal ⟨3, ![a, n, c]⟩ .f32) (acc : BitVec 32)
    (h : (⟨3, ![a, n, c]⟩ : Shape).Reduces [1] ⟨2, ![a, c]⟩) (hφ : FKind.Formats .f32)
    (hacc : acc = FKind.maximumf.neutral .f32 hφ) (p : Fin a) (e : Fin c) :
    multiReduction .maximumf [1] ⟨2, ![a, c]⟩ src acc h hφ hacc (ix2 p e)
      = (Finset.univ : Finset (Fin n)).fold max (Ideal.ofBits .f32 acc) (fun k => src (ix3 p k e)) := by
  refine (Ideal.multiReduction_maximumf_single src acc h hφ hacc (ix2 p e)).trans ?_
  exact congrArg (fun f => Finset.fold max (Ideal.ofBits .f32 acc) f (Finset.univ : Finset (Fin n)))
    (funext fun k => congrArg src (lift_mid h p e k))

/-- The host's maximum over the row axis (a reduce with a maximum body, from a scalar holding the word w), at block p
    and lane e: the same fold. -/
theorem hostMidMax_apply (x : FVec Ideal ⟨3, ![a, n, c]⟩ .f32) (w : BitVec 32)
    (h' : (⟨3, ![a, n, c]⟩ : Shape).ReducesTo [1] ⟨2, ![a, c]⟩) (h : (⟨3, ![a, n, c]⟩ : Shape).Reduces [1] ⟨2, ![a, c]⟩)
    (hu : 0 < (⟨0, ![]⟩ : Shape).numel) (p : Fin a) (e : Fin c) :
    Host.reduce FloatOps.maximumf x (constant (F := Ideal) (⟨0, ![]⟩ : Shape) .f32 w) h' hu (ix2 p e)
      = (Finset.univ : Finset (Fin n)).fold max (Ideal.ofBits .f32 w) (fun k => x (ix3 p k e)) := by
  rw [Host.reduce_eq_fold_single FloatOps.maximumf x _ h' h hu]
  exact congrArg (fun f => Finset.fold max (Ideal.ofBits .f32 w) f (Finset.univ : Finset (Fin n)))
    (funext fun k => congrArg x (lift_mid h p e k))

/-- A kernel's lane sum over the last axis, at block p and row g: the sum over the lanes. -/
theorem lastSum_apply (src : FVec Ideal ⟨3, ![a, n, c]⟩ .f32) (acc : BitVec 32)
    (h : (⟨3, ![a, n, c]⟩ : Shape).Reduces [2] ⟨2, ![a, n]⟩) (hφ : FKind.Formats .f32)
    (hacc : acc = FKind.add.neutral .f32 hφ) (p : Fin a) (g : Fin n) :
    multiReduction .add [2] ⟨2, ![a, n]⟩ src acc h hφ hacc (ix2 p g) = ∑ k : Fin c, src (ix3 p g k) := by
  refine (Ideal.multiReduction_add_single src acc h hφ hacc (ix2 p g)).trans ?_
  exact Finset.sum_congr rfl fun k _ => congrArg src (lift_last h p g k)

/-- An [n, c] matrix given a leading unit axis reads, at (u, q, r), the matrix at (q, r). -/
theorem shapeCast_nc_1nc_apply (x : (⟨2, ![n, c]⟩ : Shape).Idx → α)
    (h : (⟨2, ![n, c]⟩ : Shape).ShapeCasts ⟨3, ![1, n, c]⟩) (u : Fin 1) (q : Fin n) (r : Fin c) :
    shapeCast ⟨3, ![1, n, c]⟩ x h (ix3 u q r) = x (ix2 q r) :=
  shapeCast_apply x h _ _ (by
    have hu : u.val = 0 := by omega
    rw [Shape.rowMajor_val_three, Shape.rowMajor_val_two]
    show q.val * c + r.val = (u.val * n + q.val) * c + r.val
    rw [hu, Nat.zero_mul, Nat.zero_add])

/-- A maximum folded from an initial value is above it, so joining the initial value once more changes nothing. -/
theorem max_fold_self {ι : Type*} (s : Finset ι) (w : EReal) (f : ι → EReal) : max w (s.fold max w f) = s.fold max w f :=
  max_eq_right (Finset.le_fold_max w |>.mpr (Or.inl le_rfl))

end Cert.LibMidAxis

end
-- ==== Proof.KernelRows.lean ====
/-
  The kernel body's arithmetic, row by row. A block holds 32 batch rows; each payload of the body is read here at a
  row p of the block (and a feature d or e) as the row-level quantity it computes: the clipped user and venue rows,
  the history's clip factor per history entry, the context row (the matrix product taken on the block flattened to
  6400 rows, so entry (p, h) sits at row 200·p + h; the softmax over the history axis; the weighted sum plus a), the
  unit rows and the final norm. Nothing here is algebra: every step says which entries an operation reads.
-/
import proofs.«168373_j64742337020083_1_alg».proof.Proof.Gen.KernelIdeal.Skeleton
import proofs.«168373_j64742337020083_1_alg».proof.Proof.Spec
import proofs.«168373_j64742337020083_1_alg».proof.Proof.LibLayout
import proofs.«168373_j64742337020083_1_alg».proof.Proof.LibLayoutB
import proofs.«168373_j64742337020083_1_alg».proof.Proof.LibLanes
import proofs.«168373_j64742337020083_1_alg».proof.Proof.LibRowReduce
import proofs.«168373_j64742337020083_1_alg».proof.Proof.LibDot
import proofs.«168373_j64742337020083_1_alg».proof.Proof.LibMidAxis
import Idealize.ShloMosaic.Lib.ValueIdx
import Idealize.ShloMosaic.Lib.Pipeline.Value
import Idealize.ShloMosaic.PureOps.Ideal.Laws

noncomputable section

namespace Cert.KernelIdeal.Rows

open Idealize.ShloMosaic Idealize.ShloMosaic.ValueIdx Cert.KernelIdeal Cert.KernelIdeal.Gen Cert.PoolSpec

/-! ## The body's reductions at a row -/

section Reductions

variable (hφ : FTy.f32 = FTy.f32 ∨ FTy.f32 = FTy.bf16) (h0 : (0#32 : BitVec 32) = 0#32)
  (hm : (4286578688#32 : BitVec 32) = 4286578688#32)

/-- The sum over the features of row p of a [32, 256] block. -/
theorem rowSum (src : FVec Ideal S32x256 .f32) (p : Fin 32) :
    multiReduction .add [1] S32 src 0#32 reduces_S32x256_S32 hφ h0 (ix1 p) = ∑ l : Fin 256, src (ix2 p l) :=
  LibRowReduce.laneSum_apply src _ _ hφ h0 p

/-- The sum over the features of history entry (p, g) of a [32, 200, 256] block. -/
theorem entrySum (src : FVec Ideal S32x200x256 .f32) (p : Fin 32) (g : Fin 200) :
    multiReduction .add [2] S32x200 src 0#32 reduces_S32x200x256_S32x200 hφ h0 (ix2 p g) = ∑ l : Fin 256, src (ix3 p g l) :=
  LibMidAxis.lastSum_apply src _ _ hφ h0 p g

/-- The sum over the history of row p at feature e. -/
theorem histSum (src : FVec Ideal S32x200x256 .f32) (p : Fin 32) (e : Fin 256) :
    multiReduction .add [1] S32x256 src 0#32 reduces_S32x200x256_S32x256 hφ h0 (ix2 p e) = ∑ k : Fin 200, src (ix3 p k e) :=
  LibMidAxis.midSum_apply src _ _ hφ h0 p e

/-- The maximum over the history of row p at feature e, folded from -∞. -/
theorem histMax (src : FVec Ideal S32x200x256 .f32) (p : Fin 32) (e : Fin 256) :
    multiReduction .maximumf [1] S32x256 src 4286578688#32 reduces_S32x200x256_S32x256 hφ hm (ix2 p e)
      = (Finset.univ : Finset (Fin 200)).fold max ninf (fun k => src (ix3 p k e)) :=
  LibMidAxis.midMax_apply src _ _ hφ hm p e

end Reductions

/-- The scalar a, extracted from its [1, 1] block. -/
theorem extract_a (x : Vec Ideal S1x1 .f32) : extractAt ![0, 0] x inpos_S1x1_p0_0 = x (ix2 (0 : Fin 1) (0 : Fin 1)) :=
  congrArg x (funext fun a => Fin.ext (by match a with | ⟨0, _⟩ => rfl | ⟨1, _⟩ => rfl))

/-! ## The clipped rows -/

/-- The user row of the block, clipped. -/
theorem pay2_apply (x0 : Vec Ideal S32x256 .f32) (p : Fin 32) (d : Fin 256) :
    k0_pay2 (F := Ideal) x0 (ix2 p d) = clip (fun d' => x0 (ix2 p d')) d := by
  unfold k0_pay2
  simp only [shapeCast_self, mulf_apply, LibLayout.broadcastTo_a1_ab_apply, minimumf_apply, divf_apply, maximumf_apply,
    broadcast_apply, sqrt, LibLayout.shapeCast_a_a1_apply]
  rw [rowSum]
  rfl

/-- The venue row of the block, clipped. -/
theorem pay3_apply (x1 : Vec Ideal S32x256 .f32) (p : Fin 32) (d : Fin 256) :
    k0_pay3 (F := Ideal) x1 (ix2 p d) = clip (fun d' => x1 (ix2 p d')) d := by
  unfold k0_pay3
  simp only [shapeCast_self, mulf_apply, LibLayout.broadcastTo_a1_ab_apply, minimumf_apply, divf_apply, maximumf_apply,
    broadcast_apply, sqrt, LibLayout.shapeCast_a_a1_apply]
  rw [rowSum]
  rfl

/-- The history block as loaded. -/
theorem pay4_eq (x2 : Vec Ideal S32x200x256 .f32) : k0_pay4 (F := Ideal) x2 = x2 := by
  unfold k0_pay4
  exact shapeCast_self _ _

/-- The clip factor of history entry (p, h). -/
theorem pay5_apply (x2 : Vec Ideal S32x200x256 .f32) (p : Fin 32) (h : Fin 200) :
    k0_pay5 (F := Ideal) x2 (ix3 p h (0 : Fin 1)) = clipFactor (fun d => x2 (ix3 p h d)) := by
  unfold k0_pay5
  simp only [pay4_eq, minimumf_apply, divf_apply, maximumf_apply, broadcast_apply, sqrt, Lanes.shapeCast_ab_ab1_apply]
  rw [entrySum]
  rfl

/-! ## The matrix product on the flattened block -/

/-- Row 200·p + h of the flattened block. -/
def flat (p : Fin 32) (h : Fin 200) : Fin 6400 := ⟨p.val * 200 + h.val, by have := p.isLt; have := h.isLt; omega⟩

theorem lhs_0 (i : S6400x256.Idx) (q : dot_S6400x256_S256x256_S6400x256_1_0_0_1_n_n.contr.Idx) :
    (dot_S6400x256_S256x256_S6400x256_1_0_0_1_n_n.lhsIdx i q 0).val = (i 0).val := by
  unfold DotDims.lhsIdx
  rw [dif_neg (show ¬(0 : Fin S6400x256.rank) ∈ dot_S6400x256_S256x256_S6400x256_1_0_0_1_n_n.lhsBatch by decide), dif_pos (show (0 : Fin S6400x256.rank) ∈ dot_S6400x256_S256x256_S6400x256_1_0_0_1_n_n.lhsNonContracting by decide)]
  rfl
theorem lhs_1 (i : S6400x256.Idx) (q : dot_S6400x256_S256x256_S6400x256_1_0_0_1_n_n.contr.Idx) :
    (dot_S6400x256_S256x256_S6400x256_1_0_0_1_n_n.lhsIdx i q 1).val = (q ⟨0, by decide⟩).val :=
  dot_S6400x256_S256x256_S6400x256_1_0_0_1_n_n.lhsIdx_val_of_single rfl i q
theorem rhs_0 (i : S6400x256.Idx) (q : dot_S6400x256_S256x256_S6400x256_1_0_0_1_n_n.contr.Idx) :
    (dot_S6400x256_S256x256_S6400x256_1_0_0_1_n_n.rhsIdx i q 0).val = (q ⟨0, by decide⟩).val :=
  dot_S6400x256_S256x256_S6400x256_1_0_0_1_n_n.rhsIdx_val_of_single rfl i q
theorem rhs_1 (i : S6400x256.Idx) (q : dot_S6400x256_S256x256_S6400x256_1_0_0_1_n_n.contr.Idx) :
    (dot_S6400x256_S256x256_S6400x256_1_0_0_1_n_n.rhsIdx i q 1).val = (i 1).val := by
  unfold DotDims.rhsIdx
  rw [dif_neg (show ¬(1 : Fin S256x256.rank) ∈ dot_S6400x256_S256x256_S6400x256_1_0_0_1_n_n.rhsBatch by decide), dif_pos (show (1 : Fin S256x256.rank) ∈ dot_S6400x256_S256x256_S6400x256_1_0_0_1_n_n.rhsNonContracting by decide)]
  rfl

/-- The product of the flattened block with the weights, unflattened, at (p, h, e): the sum over the features k of
    the block at (p, h, k) times the weights at (k, e). -/
theorem prod_apply (y : FVec Ideal S32x200x256 .bf16) (w : FVec Ideal S256x256 .bf16) (p : Fin 32) (h : Fin 200) (e : Fin 256) :
    shapeCast S32x200x256 (matmul dot_S6400x256_S256x256_S6400x256_1_0_0_1_n_n none
        (shapeCast S6400x256 y shapeCasts_S32x200x256_S6400x256) w (constant S6400x256 .f32 0#32))
      shapeCasts_S6400x256_S32x200x256 (ix3 p h e)
      = ∑ k : Fin 256, y (ix3 p h k) * w (ix2 k e) := by
  rw [LibLayoutB.shapeCast_mc_abc_apply _ _ p h e (flat p h) rfl]
  simp only [matmul]
  rw [Ideal.matmul_constant_zero_apply]
  refine (LibDot.sum_contr_eq dot_S6400x256_S256x256_S6400x256_1_0_0_1_n_n 256 rfl rfl _ _ _
    (fun k => ix2 (flat p h) k) (fun k => ix2 k e) (fun k => ?_) (fun k => ?_)).trans ?_
  · have hk := ValueIdx.contrEquiv1_symm_val dot_S6400x256_S256x256_S6400x256_1_0_0_1_n_n 256 rfl rfl k
    exact funext fun a => Fin.ext (by
      match a with
      | ⟨0, _⟩ => exact lhs_0 _ _
      | ⟨1, _⟩ => exact (lhs_1 _ _).trans hk)
  · have hk := ValueIdx.contrEquiv1_symm_val dot_S6400x256_S256x256_S6400x256_1_0_0_1_n_n 256 rfl rfl k
    exact funext fun a => Fin.ext (by
      match a with
      | ⟨0, _⟩ => exact (rhs_0 _ _).trans hk
      | ⟨1, _⟩ => exact rhs_1 _ _)
  · exact Finset.sum_congr rfl fun k _ => by rw [LibLayoutB.shapeCast_abc_mc_apply y _ p h k (flat p h) rfl]

/-! ## The context row -/

/-- The context row of block row p at feature e, from the history block v29, its clip factors v39, the weights, the two
    [200, 256] addends and the scalar: the pooled softmax of the activations of the clipped history. -/
theorem pay6_apply (v29 : FVec Ideal S32x200x256 .f32) (v39 : FVec Ideal S32x200x1 .f32) (x3 : Vec Ideal S256x256 .f32)
    (x4 x5 : Vec Ideal S200x256 .f32) (x6 : Vec Ideal S1x1 .f32) (p : Fin 32) (e : Fin 256) :
    k0_pay6 (F := Ideal) v29 v39 x3 x4 x5 x6 (ix2 p e)
      = pooled (act (fun h d => v29 (ix3 p h d) * v39 (ix3 p h (0 : Fin 1))) (fun d e' => x3 (ix2 d e'))
            (fun h e' => x4 (ix2 h e')) (fun h e' => x5 (ix2 h e')))
          (fun h d => v29 (ix3 p h d) * v39 (ix3 p h (0 : Fin 1))) (x6 (ix2 (0 : Fin 1) (0 : Fin 1))) e := by
  unfold k0_pay6
  simp only [addf_apply, broadcast_apply, extract_a, shapeCast_self]
  rw [histSum]
  simp only [mulf_apply, divf_apply, LibLayoutB.broadcastTo_a1c_abc_apply, LibLayoutB.shapeCast_ab_a1b_apply]
  rw [histSum]
  simp only [exp, subf_apply, LibLayoutB.broadcastTo_a1c_abc_apply, LibLayoutB.shapeCast_ab_a1b_apply]
  rw [histMax]
  simp only [tanh, addf_apply, LibLayoutB.broadcastTo_1bc_abc_apply, LibMidAxis.shapeCast_nc_1nc_apply, prod_apply,
    truncf_apply, mulf_apply, Lanes.broadcastTo_ab1_abc_apply]
  rw [extract_a]
  rfl

/-! ## The unit rows and the distance -/

/-- A row of the block divided by its norm kept above ε. -/
theorem pay7_apply (v13 : FVec Ideal S32x256 .f32) (p : Fin 32) (d : Fin 256) :
    k0_pay7 (F := Ideal) v13 (ix2 p d) = unit (fun d' => v13 (ix2 p d')) d := by
  unfold k0_pay7
  simp only [divf_apply, LibLayout.broadcastTo_a1_ab_apply, maximumf_apply, broadcast_apply, sqrt, LibLayout.shapeCast_a_a1_apply]
  rw [rowSum]
  rfl

/-- The squared norm of the context row of block row p. -/
theorem pay8_apply (v29 : FVec Ideal S32x200x256 .f32) (v39 : FVec Ideal S32x200x1 .f32) (x3 : Vec Ideal S256x256 .f32)
    (x4 x5 : Vec Ideal S200x256 .f32) (x6 : Vec Ideal S1x1 .f32) (p : Fin 32) :
    k0_pay8 (F := Ideal) v29 v39 x3 x4 x5 x6 (ix2 p (0 : Fin 1))
      = ∑ e : Fin 256, k0_pay6 (F := Ideal) v29 v39 x3 x4 x5 x6 (ix2 p e) * k0_pay6 (F := Ideal) v29 v39 x3 x4 x5 x6 (ix2 p e) := by
  unfold k0_pay8
  simp only [LibLayout.shapeCast_a_a1_apply]
  rw [rowSum]
  rfl

/-- The stored value at block row p: the norm of (unit user row + context row over its norm) - unit venue row, where
    v81 is the unit user row, v73 the context row, v84 its squared norm and v27 the clipped venue row. -/
theorem pay1_apply (v27 v73 v81 : FVec Ideal S32x256 .f32) (v84 : FVec Ideal S32x1 .f32) (p : Fin 32) :
    k0_pay1 (F := Ideal) v27 v73 v81 v84 (ix2 p (0 : Fin 1))
      = Ideal.sqrt (∑ e : Fin 256,
          ((v81 (ix2 p e) + Ideal.div (v73 (ix2 p e)) (max (Ideal.sqrt (v84 (ix2 p (0 : Fin 1)))) eps)) - unit (fun d => v27 (ix2 p d)) e)
          * ((v81 (ix2 p e) + Ideal.div (v73 (ix2 p e)) (max (Ideal.sqrt (v84 (ix2 p (0 : Fin 1)))) eps)) - unit (fun d => v27 (ix2 p d)) e)) := by
  unfold k0_pay1
  simp only [LibLayout.shapeCast_a_a1_apply, sqrt]
  rw [rowSum]
  simp only [mulf_apply, subf_apply, addf_apply, divf_apply, LibLayout.broadcastTo_a1_ab_apply, maximumf_apply, broadcast_apply,
    sqrt, LibLayout.shapeCast_a_a1_apply]
  rw [rowSum]
  rfl

/-! ## A block row's stored value is its score -/

/-- What the body stores at row p of the output block, from the seven input blocks: the score of that batch row. -/
theorem stored_row (x0 x1 : Vec Ideal S32x256 .f32) (x2 : Vec Ideal S32x200x256 .f32) (x3 : Vec Ideal S256x256 .f32)
    (x4 x5 : Vec Ideal S200x256 .f32) (x6 : Vec Ideal S1x1 .f32) (p : Fin 32) :
    k0_pay1 (F := Ideal) (k0_pay3 x1) (k0_pay6 (k0_pay4 x2) (k0_pay5 x2) x3 x4 x5 x6) (k0_pay7 (k0_pay2 x0))
        (k0_pay8 (k0_pay4 x2) (k0_pay5 x2) x3 x4 x5 x6) (ix2 p (0 : Fin 1))
      = score (fun d => x0 (ix2 p d)) (fun d => x1 (ix2 p d)) (fun h d => x2 (ix3 p h d)) (fun d e => x3 (ix2 d e))
          (fun h e => x4 (ix2 h e)) (fun h e => x5 (ix2 h e)) (x6 (ix2 (0 : Fin 1) (0 : Fin 1))) := by
  rw [pay1_apply]
  simp only [pay7_apply, pay2_apply, pay3_apply, pay8_apply, pay6_apply, pay4_eq, pay5_apply]
  rfl

end Cert.KernelIdeal.Rows

end
-- ==== Proof.KernelValue.lean ====
/-
  The kernel's result array. Grid point t handles batch rows 32·t … 32·t + 31: its user, venue and history blocks are those
  rows of the looked-up arrays, its other four blocks are the whole weights, addends and scalar, and what it writes back
  is rows 32·t … 32·t + 31 of the column of scores. The 64 blocks tile the 2048 rows, so the array ends holding the whole
  column; the host's last step flattens it to a vector.
-/
import proofs.«168373_j64742337020083_1_alg».proof.Proof.Gen.KernelIdeal.Frame
import proofs.«168373_j64742337020083_1_alg».proof.Proof.KernelRows
import proofs.«168373_j64742337020083_1_alg».proof.Proof.Arrays
import proofs.«168373_j64742337020083_1_alg».proof.Proof.LibLayout
import Idealize.ShloMosaic.Lib.ValueIdx
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.PoolSpec

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The block index of each window at grid point t: the three batched inputs and the output move with t along the
    batch axis, the four others stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The batch row that row p of grid point t's blocks is. -/
def brow (t : Fin cfg0.N) (p : Fin 32) : Fin 2048 :=
  ⟨t.val * 32 + p.val, by have h := t.isLt; have hN : cfg0.N = 64 := N_0; have := p.isLt; omega⟩

/-! ## The input blocks are rows of the arrays -/

theorem read0 (c : Dev nD) (t : Fin cfg0.N) (p : Fin 32) (d : Fin 256) :
    iblk m c 0 t (ix2 p d) = (V m c main_v6 : S2048x256.Idx → EReal) (ix2 (brow t p) d) := by
  obtain ⟨e0, e1, -⟩ := idx_facts t
  show (V m c main_v6 : S2048x256.Idx → EReal) (((cfg0.win 0).blk t).view.emb (ix2 p d)) = _
  refine congrArg (V m c main_v6 : S2048x256.Idx → EReal) (funext fun a => Fin.ext ?_)
  match a with
  | ⟨0, _⟩ => show win0_0.index t (0 : Fin 2) * 32 + 1 * p.val = t.val * 32 + p.val; omega
  | ⟨1, _⟩ => show win0_0.index t (1 : Fin 2) * 256 + 1 * d.val = d.val; omega

theorem read1 (c : Dev nD) (t : Fin cfg0.N) (p : Fin 32) (d : Fin 256) :
    iblk m c 1 t (ix2 p d) = (V m c main_v13 : S2048x256.Idx → EReal) (ix2 (brow t p) d) := by
  obtain ⟨-, -, e0, e1, -⟩ := idx_facts t
  show (V m c main_v13 : S2048x256.Idx → EReal) (((cfg0.win 1).blk t).view.emb (ix2 p d)) = _
  refine congrArg (V m c main_v13 : S2048x256.Idx → EReal) (funext fun a => Fin.ext ?_)
  match a with
  | ⟨0, _⟩ => show win0_1.index t (0 : Fin 2) * 32 + 1 * p.val = t.val * 32 + p.val; omega
  | ⟨1, _⟩ => show win0_1.index t (1 : Fin 2) * 256 + 1 * d.val = d.val; omega

theorem read2 (c : Dev nD) (t : Fin cfg0.N) (p : Fin 32) (h : Fin 200) (d : Fin 256) :
    iblk m c 2 t (ix3 p h d) = (V m c main_v20 : S2048x200x256.Idx → EReal) (ix3 (brow t p) h d) := by
  obtain ⟨-, -, -, -, e0, e1, e2, -⟩ := idx_facts t
  show (V m c main_v20 : S2048x200x256.Idx → EReal) (((cfg0.win 2).blk t).view.emb (ix3 p h d)) = _
  refine congrArg (V m c main_v20 : S2048x200x256.Idx → EReal) (funext fun a => Fin.ext ?_)
  match a with
  | ⟨0, _⟩ => show win0_2.index t (0 : Fin 3) * 32 + 1 * p.val = t.val * 32 + p.val; omega
  | ⟨1, _⟩ => show win0_2.index t (1 : Fin 3) * 200 + 1 * h.val = h.val; omega
  | ⟨2, _⟩ => show win0_2.index t (2 : Fin 3) * 256 + 1 * d.val = d.val; omega

theorem read3 (c : Dev nD) (t : Fin cfg0.N) (d e : Fin 256) :
    iblk m c 3 t (ix2 d e) = (V m c main_arg7 : S256x256.Idx → EReal) (ix2 d e) := by
  obtain ⟨-, -, -, -, -, -, -, e0, e1, -⟩ := idx_facts t
  show (V m c main_arg7 : S256x256.Idx → EReal) (((cfg0.win 3).blk t).view.emb (ix2 d e)) = _
  refine congrArg (V m c main_arg7 : S256x256.Idx → EReal) (funext fun a => Fin.ext ?_)
  match a with
  | ⟨0, _⟩ => show win0_3.index t (0 : Fin 2) * 256 + 1 * d.val = d.val; omega
  | ⟨1, _⟩ => show win0_3.index t (1 : Fin 2) * 256 + 1 * e.val = e.val; omega

theorem read4 (c : Dev nD) (t : Fin cfg0.N) (h : Fin 200) (e : Fin 256) :
    iblk m c 4 t (ix2 h e) = (V m c main_v21 : S200x256.Idx → EReal) (ix2 h e) := by
  obtain ⟨-, -, -, -, -, -, -, -, -, e0, e1, -⟩ := idx_facts t
  show (V m c main_v21 : S200x256.Idx → EReal) (((cfg0.win 4).blk t).view.emb (ix2 h e)) = _
  refine congrArg (V m c main_v21 : S200x256.Idx → EReal) (funext fun a => Fin.ext ?_)
  match a with
  | ⟨0, _⟩ => show win0_4.index t (0 : Fin 2) * 200 + 1 * h.val = h.val; omega
  | ⟨1, _⟩ => show win0_4.index t (1 : Fin 2) * 256 + 1 * e.val = e.val; omega

theorem read5 (c : Dev nD) (t : Fin cfg0.N) (h : Fin 200) (e : Fin 256) :
    iblk m c 5 t (ix2 h e) = (V m c main_arg10 : S200x256.Idx → EReal) (ix2 h e) := by
  obtain ⟨-, -, -, -, -, -, -, -, -, -, -, e0, e1, -⟩ := idx_facts t
  show (V m c main_arg10 : S200x256.Idx → EReal) (((cfg0.win 5).blk t).view.emb (ix2 h e)) = _
  refine congrArg (V m c main_arg10 : S200x256.Idx → EReal) (funext fun a => Fin.ext ?_)
  match a with
  | ⟨0, _⟩ => show win0_5.index t (0 : Fin 2) * 200 + 1 * h.val = h.val; omega
  | ⟨1, _⟩ => show win0_5.index t (1 : Fin 2) * 256 + 1 * e.val = e.val; omega

theorem read6 (c : Dev nD) (t : Fin cfg0.N) :
    iblk m c 6 t (ix2 (0 : Fin 1) (0 : Fin 1)) = (V m c main_v22 : S1x1.Idx → EReal) (ix2 (0 : Fin 1) (0 : Fin 1)) := by
  obtain ⟨-, -, -, -, -, -, -, -, -, -, -, -, -, e0, e1, -⟩ := idx_facts t
  show (V m c main_v22 : S1x1.Idx → EReal) (((cfg0.win 6).blk t).view.emb (ix2 (0 : Fin 1) (0 : Fin 1))) = _
  refine congrArg (V m c main_v22 : S1x1.Idx → EReal) (funext fun a => Fin.ext ?_)
  match a with
  | ⟨0, _⟩ => show win0_6.index t (0 : Fin 2) * 1 + 1 * 0 = 0; omega
  | ⟨1, _⟩ => show win0_6.index t (1 : Fin 2) * 1 + 1 * 0 = 0; omega

/-! ## What a grid point writes back -/

/-- Grid point t writes back its block of the column of scores of the looked-up arrays. -/
theorem flushed_eq (c : Dev nD) (t : Fin cfg0.N) :
    (dats m 0 c).flushed 7 t = ((cfg0.win 7).blk t).view.read (Elt Ideal)
      (scoreCol (N := 2048) (V m c main_v6 : S2048x256.Idx → EReal) (V m c main_v13 : S2048x256.Idx → EReal) (V m c main_v20 : S2048x200x256.Idx → EReal) (V m c main_arg7 : S256x256.Idx → EReal) (V m c main_v21 : S200x256.Idx → EReal) (V m c main_arg10 : S200x256.Idx → EReal) ((V m c main_v22 : S1x1.Idx → EReal) (ix2 (0 : Fin 1) (0 : Fin 1)))) := by
  show (cfg0.win 7).cut (grid0.coords t) ((dats m 0 c).after 7 t) = _
  rw [after0_7]
  unfold out0_7
  rw [View.canon_unit_zero hz2]
  simp only [View.ld_unit_zero (S := S32x256) hz2, View.ld_unit_zero (S := S32x200x256) hz3, View.ld_unit_zero (S := S256x256) hz2,
    View.ld_unit_zero (S := S200x256) hz2, View.ld_unit_zero (S := S1x1) hz2]
  funext j
  obtain ⟨p, u, rfl⟩ : ∃ (p : Fin 32) (u : Fin 1), j = ix2 p u := ⟨j 0, j 1, eq_ix2 j⟩
  obtain rfl : u = 0 := Subsingleton.elim _ _
  obtain ⟨-, -, -, -, -, -, -, -, -, -, -, -, -, -, -, e0, e1⟩ := idx_facts t
  show k0_pay1 (F := Ideal) _ _ _ _ (ix2 p (0 : Fin 1)) = scoreCol (N := 2048) _ _ _ _ _ _ _ (((cfg0.win 7).blk t).view.emb (ix2 p (0 : Fin 1)))
  rw [Rows.stored_row, scoreCol_apply _ _ _ _ _ _ _ _ (brow t p)
    (by show win0_7.index t (0 : Fin 2) * 32 + 1 * p.val = t.val * 32 + p.val; omega)]
  simp only [read0, read1, read2, read3, read4, read5, read6]
  rfl

/-! ## The blocks tile the column -/

/-- An index of the column is in grid point t's block iff each coordinate is in the block's range on its axis. -/
theorem mem_blk (t : Fin cfg0.N) (i : S2048x1.Idx) :
    i ∈ ((cfg0.win 7).blk t).view.set ↔ ∀ a : Fin 2, win0_7.index t a * S32x1.size a ≤ (i a).val ∧ (i a).val < win0_7.index t a * S32x1.size a + S32x1.size a := by
  show i ∈ ((View.whole main_v23).slice (win0_7.rect t)).set ↔ _
  rw [View.set_slice_whole, Rect.mem_set_unit]
  exact Iff.rfl

/-- Row r of the column is in the block of grid point r / 32. -/
theorem cover (i : S2048x1.Idx) : ∃ t : Fin cfg0.N, (cfg0.win 7).flush t = true ∧ i ∈ ((cfg0.win 7).blk t).view.set := by
  have hi0 : (i 0).val < 2048 := (i 0).isLt
  have hi1 : (i 1).val < 1 := (i 1).isLt
  have hN : cfg0.N = 64 := N_0
  have hlt : (i 0).val / 32 < cfg0.N := by rw [hN]; omega
  obtain ⟨-, -, -, -, -, -, -, -, -, -, -, -, -, -, -, e0, e1⟩ := idx_facts ⟨(i 0).val / 32, hlt⟩
  have e0' : win0_7.index ⟨(i 0).val / 32, hlt⟩ (0 : Fin 2) = (i 0).val / 32 := e0
  refine ⟨⟨(i 0).val / 32, hlt⟩, flush0_7 _, ?_⟩
  rw [mem_blk]
  intro a
  match a with
  | ⟨0, _⟩ =>
    show win0_7.index ⟨(i 0).val / 32, hlt⟩ (0 : Fin 2) * 32 ≤ (i 0).val ∧ (i 0).val < win0_7.index ⟨(i 0).val / 32, hlt⟩ (0 : Fin 2) * 32 + 32
    omega
  | ⟨1, _⟩ =>
    show win0_7.index ⟨(i 0).val / 32, hlt⟩ (1 : Fin 2) * 1 ≤ (i 1).val ∧ (i 1).val < win0_7.index ⟨(i 0).val / 32, hlt⟩ (1 : Fin 2) * 1 + 1
    omega

/-- The output array after the run: the column of scores. -/
theorem final (c : Dev nD) : (dats m 0 c).arrAt 7 cfg0.N = scoreCol (N := 2048) (V m c main_v6 : S2048x256.Idx → EReal) (V m c main_v13 : S2048x256.Idx → EReal) (V m c main_v20 : S2048x200x256.Idx → EReal) (V m c main_arg7 : S256x256.Idx → EReal) (V m c main_v21 : S200x256.Idx → EReal) (V m c main_arg10 : S200x256.Idx → EReal) ((V m c main_v22 : S1x1.Idx → EReal) (ix2 (0 : Fin 1) (0 : Fin 1))) :=
  (dats m 0 c).arrAt_eq_of_cover 7 _ (fun t _ => flushed_eq m c t) cover

/-! ## The host's last step -/

/-- The result the program returns: the column flattened to the vector of scores. -/
theorem result_eq (c : Dev nD) :
    Pipeline.afterTail₀ cfgs (dats m) 0 (V0 m) [hostOps1] c main_v24 = scoreVec (N := 2048) (V m c main_v6 : S2048x256.Idx → EReal) (V m c main_v13 : S2048x256.Idx → EReal) (V m c main_v20 : S2048x200x256.Idx → EReal) (V m c main_arg7 : S256x256.Idx → EReal) (V m c main_v21 : S200x256.Idx → EReal) (V m c main_arg10 : S200x256.Idx → EReal) ((V m c main_v22 : S1x1.Idx → EReal) (ix2 (0 : Fin 1) (0 : Fin 1))) := by
  unfold Pipeline.afterTail₀
  show StableHlo.after hostOps1 _ (Proc.devRef .tc main_v24) = _
  after_results
  funext i
  obtain ⟨b, rfl⟩ : ∃ b : Fin 2048, i = ix1 b := ⟨i 0, eq_ix1 i⟩
  show shapeCast S2048 (Pipeline.withArrays spec0 c (V0 m c) (fun w => (dats m 0 c).arrAt w cfg0.N) (Proc.devRef .tc main_v23))
      shapeCasts_S2048x1_S2048 (ix1 b) = _
  rw [shapeCast_apply _ shapeCasts_S2048x1_S2048 (ix1 b) (ix2 b (0 : Fin 1)) (by
      rw [Shape.rowMajor_val_two, Shape.rowMajor_val_one]
      show b.val * 1 + 0 = b.val
      omega)]
  rw [show Pipeline.withArrays spec0 c (V0 m c) (fun w => (dats m 0 c).arrAt w cfg0.N) (Proc.devRef .tc main_v23)
      = (dats m 0 c).arrAt 7 cfg0.N from Pipeline.withArrays_arr spec0 launch0.win.arr_inj c _ _ 7, final]
  rw [scoreCol_apply _ _ _ _ _ _ _ _ b rfl, scoreVec_apply _ _ _ _ _ _ _ _ b rfl]

/-! ## The run -/

/-- Every weakly fair execution of the program terminates with the vector of scores of the looked-up arrays as its
    result and its arguments unchanged. -/
theorem run : θ_run defs (onTc (τ := τ) (main (F := Ideal))) ⟨m, fun _ => 0, ρ⟩ (fun r => ∀ c : Dev nD,
      r.2.mem ((c.tc : Thread nD τ).loc main_v24) = scoreVec (N := 2048) (V m c main_v6 : S2048x256.Idx → EReal) (V m c main_v13 : S2048x256.Idx → EReal) (V m c main_v20 : S2048x200x256.Idx → EReal) (V m c main_arg7 : S256x256.Idx → EReal) (V m c main_v21 : S200x256.Idx → EReal) (V m c main_arg10 : S200x256.Idx → EReal) ((V m c main_v22 : S1x1.Idx → EReal) (ix2 (0 : Fin 1) (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).2 main_v24 (Pipeline.mem_restRefs_of main_v24 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 3).trans (((dats m 0 c).arrAt_in 3 rfl _).trans ((A_eq m c 3).trans (V_main_arg7 m c))),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).1 5).trans (((dats m 0 c).arrAt_in 5 rfl _).trans ((A_eq m c 5).trans (V_main_arg10 m c))),
      ((h c).2 main_arg11 (Pipeline.mem_restRefs_of main_arg11 (by decide) (by decide))).trans (W_main_arg11 m (dats m) c)⟩) (run_main m ρ)

end Cert.KernelIdeal.Blocks

end
-- ==== Proof.RefRows.lean ====
/-
  The reference's stages, row by row: each is read at a batch row b as the row-level quantity of the specification.
-/
import proofs.«168373_j64742337020083_1_alg».proof.Proof.Gen.ReferenceIdeal.Read
import proofs.«168373_j64742337020083_1_alg».proof.Proof.Spec
import proofs.«168373_j64742337020083_1_alg».proof.Proof.LibMidAxis
import Idealize.ShloMosaic.Lib.ValueIdx
import Idealize.ShloMosaic.PureOps.Ideal.Laws

noncomputable section

namespace Cert.ReferenceIdeal.Rows

open Idealize.ShloMosaic Idealize.ShloMosaic.ValueIdx Cert.ReferenceIdeal Cert.ReferenceIdeal.Gen Cert.ReferenceIdeal.Read Cert.PoolSpec

variable (x0 x1 : (⟨S2048, .i32⟩ : BufTy).Contents (Elt Ideal)) (x2 : (⟨S2048x200, .i32⟩ : BufTy).Contents (Elt Ideal))
  (x5 x6 : (⟨S100000x256, .f32⟩ : BufTy).Contents (Elt Ideal)) (x7 x8 : (⟨S256x256, .f32⟩ : BufTy).Contents (Elt Ideal))
  (x9 x10 : (⟨S200x256, .f32⟩ : BufTy).Contents (Elt Ideal)) (x11 : (⟨S1, .f32⟩ : BufTy).Contents (Elt Ideal))

/-! ## Which entry each layout step reads -/

theorem i_v14 (b : Fin 2048) (d : Fin 256) : idx_main_v14 (ix2 b d) = ix2 b (0 : Fin 1) :=
  funext fun a => Fin.ext (by fin_cases a <;> rfl)
theorem i_c0v2 (b : Fin 2048) (u : Fin 1) : idx_main_call0_v2 (ix2 b u) = ix1 b :=
  funext fun a => Fin.ext (by fin_cases a <;> rfl)
theorem i_c0v1 (b : Fin 2048) (k : Fin 256) : idx_main_call0_v1 (ix1 b) k = ix2 b k :=
  funext fun a => Fin.ext (by fin_cases a <;> rfl)

theorem i_v30 (b : Fin 2048) (d : Fin 256) : idx_main_v30 (ix2 b d) = ix2 b (0 : Fin 1) :=
  funext fun a => Fin.ext (by fin_cases a <;> rfl)
theorem i_c1v2 (b : Fin 2048) (u : Fin 1) : idx_main_call1_v2 (ix2 b u) = ix1 b :=
  funext fun a => Fin.ext (by fin_cases a <;> rfl)
theorem i_c1v1 (b : Fin 2048) (k : Fin 256) : idx_main_call1_v1 (ix1 b) k = ix2 b k :=
  funext fun a => Fin.ext (by fin_cases a <;> rfl)
theorem i_v46 (b : Fin 2048) (h : Fin 200) (d : Fin 256) : idx_main_v46 (ix3 b h d) = ix3 b h (0 : Fin 1) :=
  funext fun a => Fin.ext (by fin_cases a <;> rfl)
theorem i_c2v2 (b : Fin 2048) (h : Fin 200) (u : Fin 1) : idx_main_call2_v2 (ix3 b h u) = ix2 b h :=
  funext fun a => Fin.ext (by fin_cases a <;> rfl)
theorem i_c2v1 (b : Fin 2048) (h : Fin 200) (k : Fin 256) : idx_main_call2_v1 (ix2 b h) k = ix3 b h k :=
  funext fun a => Fin.ext (by fin_cases a <;> rfl)
theorem l_v48 (b : Fin 2048) (h : Fin 200) (e k : Fin 256) : lidx_main_v48 (ix3 b h e) k = ix3 b h k :=
  funext fun a => Fin.ext (by fin_cases a <;> rfl)
theorem r_v48 (b : Fin 2048) (h : Fin 200) (e k : Fin 256) : ridx_main_v48 (ix3 b h e) k = ix2 k e :=
  funext fun a => Fin.ext (by fin_cases a <;> rfl)
theorem i_v51 (b : Fin 2048) (h : Fin 200) (e : Fin 256) : idx_main_v51 (ix3 b h e) = ix3 (0 : Fin 1) h e :=
  funext fun a => Fin.ext (by fin_cases a <;> rfl)
theorem i_v50 (u : Fin 1) (h : Fin 200) (e : Fin 256) : idx_main_v50 (ix3 u h e) = ix2 h e :=
  funext fun a => Fin.ext (by fin_cases a <;> rfl)
theorem i_v54 (b : Fin 2048) (h : Fin 200) (e : Fin 256) : idx_main_v54 (ix3 b h e) = ix3 (0 : Fin 1) h e :=
  funext fun a => Fin.ext (by fin_cases a <;> rfl)
theorem i_v53 (u : Fin 1) (h : Fin 200) (e : Fin 256) : idx_main_v53 (ix3 u h e) = ix2 h e :=
  funext fun a => Fin.ext (by fin_cases a <;> rfl)
theorem i_v61 (b : Fin 2048) (h : Fin 200) (e : Fin 256) : idx_main_v61 (ix3 b h e) = ix3 b (0 : Fin 1) e :=
  funext fun a => Fin.ext (by fin_cases a <;> rfl)
theorem i_v60 (b : Fin 2048) (u : Fin 1) (e : Fin 256) : idx_main_v60 (ix3 b u e) = ix2 b e :=
  funext fun a => Fin.ext (by fin_cases a <;> rfl)
theorem i_v66 (b : Fin 2048) (h : Fin 200) (e : Fin 256) : idx_main_v66 (ix3 b h e) = ix3 b (0 : Fin 1) e :=
  funext fun a => Fin.ext (by fin_cases a <;> rfl)
theorem i_v65 (b : Fin 2048) (u : Fin 1) (e : Fin 256) : idx_main_v65 (ix3 b u e) = ix2 b e :=
  funext fun a => Fin.ext (by fin_cases a <;> rfl)
theorem i_v64 (b : Fin 2048) (e : Fin 256) (k : Fin 200) : idx_main_v64 (ix2 b e) k = ix3 b k e :=
  funext fun a => Fin.ext (by fin_cases a <;> rfl)
theorem i_v69 (b : Fin 2048) (e : Fin 256) (k : Fin 200) : idx_main_v69 (ix2 b e) k = ix3 b k e :=
  funext fun a => Fin.ext (by fin_cases a <;> rfl)
theorem i_v71 (b : Fin 2048) (e : Fin 256) : idx_main_v71 (ix2 b e) = ix2 (0 : Fin 1) (0 : Fin 1) :=
  funext fun a => Fin.ext (by fin_cases a <;> rfl)
theorem i_v70 (u v : Fin 1) : idx_main_v70 (ix2 u v) = ix1 (0 : Fin 1) :=
  funext fun a => Fin.ext (by fin_cases a <;> rfl)
theorem i_v76 (b : Fin 2048) (d : Fin 256) : idx_main_v76 (ix2 b d) = ix2 b (0 : Fin 1) :=
  funext fun a => Fin.ext (by fin_cases a <;> rfl)
theorem i_c3v2 (b : Fin 2048) (u : Fin 1) : idx_main_call3_v2 (ix2 b u) = ix1 b :=
  funext fun a => Fin.ext (by fin_cases a <;> rfl)
theorem i_c3v1 (b : Fin 2048) (k : Fin 256) : idx_main_call3_v1 (ix1 b) k = ix2 b k :=
  funext fun a => Fin.ext (by fin_cases a <;> rfl)
theorem i_v81 (b : Fin 2048) (d : Fin 256) : idx_main_v81 (ix2 b d) = ix2 b (0 : Fin 1) :=
  funext fun a => Fin.ext (by fin_cases a <;> rfl)
theorem i_c4v2 (b : Fin 2048) (u : Fin 1) : idx_main_call4_v2 (ix2 b u) = ix1 b :=
  funext fun a => Fin.ext (by fin_cases a <;> rfl)
theorem i_c4v1 (b : Fin 2048) (k : Fin 256) : idx_main_call4_v1 (ix1 b) k = ix2 b k :=
  funext fun a => Fin.ext (by fin_cases a <;> rfl)
theorem i_v87 (b : Fin 2048) (d : Fin 256) : idx_main_v87 (ix2 b d) = ix2 b (0 : Fin 1) :=
  funext fun a => Fin.ext (by fin_cases a <;> rfl)
theorem i_c5v2 (b : Fin 2048) (u : Fin 1) : idx_main_call5_v2 (ix2 b u) = ix1 b :=
  funext fun a => Fin.ext (by fin_cases a <;> rfl)
theorem i_c5v1 (b : Fin 2048) (k : Fin 256) : idx_main_call5_v1 (ix1 b) k = ix2 b k :=
  funext fun a => Fin.ext (by fin_cases a <;> rfl)
theorem i_v91 (b : Fin 2048) (k : Fin 256) : idx_main_v91 (ix1 b) k = ix2 b k :=
  funext fun a => Fin.ext (by fin_cases a <;> rfl)

/-! ## The stages -/

/-- The looked-up user row b, clipped. -/
theorem user_row (b : Fin 2048) (d : Fin 256) :
    val_main_v15 (F := Ideal) x0 x5 (ix2 b d) = clip (fun d' => val_main_v6 (F := Ideal) x0 x5 (ix2 b d')) d := by
  simp only [val_main_v15_apply, val_main_v14_apply, val_main_v13_apply, val_main_v12_apply, val_main_cst_2_apply,
    val_main_v11_apply, val_main_v10_apply, val_main_cst_1_apply, val_main_v9_apply, val_main_v8_apply, val_main_cst_apply,
    val_main_v7_apply, val_main_call0_v2_apply, val_main_call0_v1_apply, val_main_call0_cst_apply, val_main_call0_v0_apply]
  simp only [i_v14, i_c0v2, i_c0v1, Ideal.ofBits_def, Ideal.ofBits_zero_f32, zero_add]
  rfl

/-- The looked-up venue row b, clipped. -/
theorem venue_row (b : Fin 2048) (d : Fin 256) :
    val_main_v31 (F := Ideal) x1 x6 (ix2 b d) = clip (fun d' => val_main_v22 (F := Ideal) x1 x6 (ix2 b d')) d := by
  simp only [val_main_v31_apply, val_main_v30_apply, val_main_v29_apply, val_main_v28_apply, val_main_cst_7_apply, val_main_v27_apply, val_main_v26_apply, val_main_cst_6_apply, val_main_v25_apply, val_main_v24_apply, val_main_cst_5_apply, val_main_v23_apply, val_main_call1_v2_apply, val_main_call1_v1_apply, val_main_call1_cst_apply, val_main_call1_v0_apply]
  simp only [i_v30, i_c1v2, i_c1v1, Ideal.ofBits_def, Ideal.ofBits_zero_f32, zero_add]
  rfl

/-- History entry (b, h), clipped. -/
theorem hist_row (b : Fin 2048) (h : Fin 200) (d : Fin 256) :
    val_main_v47 (F := Ideal) x2 x6 (ix3 b h d) = clip (fun d' => val_main_v38 (F := Ideal) x2 x6 (ix3 b h d')) d := by
  simp only [val_main_v47_apply, val_main_v46_apply, val_main_v45_apply, val_main_v44_apply, val_main_cst_12_apply, val_main_v43_apply, val_main_v42_apply, val_main_cst_11_apply, val_main_v41_apply, val_main_v40_apply, val_main_cst_10_apply, val_main_v39_apply, val_main_call2_v2_apply, val_main_call2_v1_apply, val_main_call2_cst_apply, val_main_call2_v0_apply]
  simp only [i_v46, i_c2v2, i_c2v1, Ideal.ofBits_def, Ideal.ofBits_zero_f32, zero_add]
  rfl

/-- The activation of history entry (b, h) at feature e. -/
theorem act_row (b : Fin 2048) (h : Fin 200) (e : Fin 256) :
    val_main_v56 (F := Ideal) x2 x6 x7 x8 x9 x10 (ix3 b h e)
      = act (fun h d => val_main_v47 (F := Ideal) x2 x6 (ix3 b h d)) (fun d e' => x7 (ix2 d e'))
          (fun h e' => val_main_v49 (F := Ideal) x8 x9 (ix2 h e')) (fun h e' => x10 (ix2 h e')) h e := by
  simp only [val_main_v56_apply, val_main_v55_apply, val_main_v54_apply, val_main_v53_apply, val_main_v52_apply, val_main_v51_apply, val_main_v50_apply, val_main_v48_apply]
  simp only [i_v54, i_v53, i_v51, i_v50, l_v48, r_v48]
  rfl

/-- The largest activation over the history of row b at feature e. -/
theorem top_row (b : Fin 2048) (e : Fin 256) :
    val_main_v59 (F := Ideal) x2 x6 x7 x8 x9 x10 (ix2 b e)
      = top (fun h e' => val_main_v56 (F := Ideal) x2 x6 x7 x8 x9 x10 (ix3 b h e')) e := by
  rw [val_main_v59_apply, val_main_v58_apply, val_main_cst_14_apply]
  unfold val_main_v57 val_main_cst_13
  rw [LibMidAxis.hostMidMax_apply _ _ reducesTo_S2048x200x256_S2048x256_d1 (by decide) h_S_ b e]
  exact LibMidAxis.max_fold_self _ _ _

/-- The context row of batch row b at feature e. -/
theorem ctx_row (b : Fin 2048) (e : Fin 256) :
    val_main_v72 (F := Ideal) x2 x6 x7 x8 x9 x10 x11 (ix2 b e)
      = pooled (fun h e' => val_main_v56 (F := Ideal) x2 x6 x7 x8 x9 x10 (ix3 b h e')) (fun h d => val_main_v47 (F := Ideal) x2 x6 (ix3 b h d))
          (x11 (ix1 (0 : Fin 1))) e := by
  simp only [val_main_v72_apply, val_main_v71_apply, val_main_v70_apply, val_main_v69_apply, val_main_cst_16_apply, val_main_v68_apply, val_main_v67_apply, val_main_v66_apply, val_main_v65_apply, val_main_v64_apply, val_main_cst_15_apply, val_main_v63_apply, val_main_v62_apply, val_main_v61_apply, val_main_v60_apply]
  simp only [i_v71, i_v70, i_v69, i_v66, i_v65, i_v64, i_v61, i_v60, top_row, Ideal.ofBits_def, Ideal.ofBits_zero_f32, zero_add]
  rfl

/-- The clipped user row over its norm. -/
theorem unit_user (b : Fin 2048) (e : Fin 256) :
    val_main_v77 (F := Ideal) x0 x5 (ix2 b e) = unit (fun e' => val_main_v15 (F := Ideal) x0 x5 (ix2 b e')) e := by
  simp only [val_main_v77_apply, val_main_v76_apply, val_main_v75_apply, val_main_v74_apply, val_main_cst_17_apply, val_main_v73_apply, val_main_call3_v2_apply, val_main_call3_v1_apply, val_main_call3_cst_apply, val_main_call3_v0_apply]
  simp only [i_v76, i_c3v2, i_c3v1, Ideal.ofBits_def, Ideal.ofBits_zero_f32, zero_add]
  rfl

/-- The context row over its norm. -/
theorem unit_ctx (b : Fin 2048) (e : Fin 256) :
    val_main_v82 (F := Ideal) x2 x6 x7 x8 x9 x10 x11 (ix2 b e) = unit (fun e' => val_main_v72 (F := Ideal) x2 x6 x7 x8 x9 x10 x11 (ix2 b e')) e := by
  simp only [val_main_v82_apply, val_main_v81_apply, val_main_v80_apply, val_main_v79_apply, val_main_cst_18_apply, val_main_v78_apply, val_main_call4_v2_apply, val_main_call4_v1_apply, val_main_call4_cst_apply, val_main_call4_v0_apply]
  simp only [i_v81, i_c4v2, i_c4v1, Ideal.ofBits_def, Ideal.ofBits_zero_f32, zero_add]
  rfl

/-- The clipped venue row over its norm. -/
theorem unit_venue (b : Fin 2048) (e : Fin 256) :
    val_main_v88 (F := Ideal) x1 x6 (ix2 b e) = unit (fun e' => val_main_v31 (F := Ideal) x1 x6 (ix2 b e')) e := by
  simp only [val_main_v88_apply, val_main_v87_apply, val_main_v86_apply, val_main_v85_apply, val_main_cst_19_apply, val_main_v84_apply, val_main_call5_v2_apply, val_main_call5_v1_apply, val_main_call5_cst_apply, val_main_call5_v0_apply]
  simp only [i_v87, i_c5v2, i_c5v1, Ideal.ofBits_def, Ideal.ofBits_zero_f32, zero_add]
  rfl

/-- The reference's result at batch row b is the score of that row: of the looked-up user row, venue row and history,
    the weights, the product of the two other matrices, the bias and the scalar. -/
theorem result_row (b : Fin 2048) :
    val_main_v92 (F := Ideal) x0 x1 x2 x5 x6 x7 x8 x9 x10 x11 (ix1 b)
      = score (fun d => val_main_v6 (F := Ideal) x0 x5 (ix2 b d)) (fun d => val_main_v22 (F := Ideal) x1 x6 (ix2 b d))
          (fun h d => val_main_v38 (F := Ideal) x2 x6 (ix3 b h d)) (fun d e => x7 (ix2 d e))
          (fun h e => val_main_v49 (F := Ideal) x8 x9 (ix2 h e)) (fun h e => x10 (ix2 h e)) (x11 (ix1 (0 : Fin 1))) := by
  simp only [val_main_v92_apply, val_main_v91_apply, val_main_cst_20_apply, val_main_v90_apply, val_main_v89_apply, val_main_v83_apply]
  simp only [i_v91, unit_user, unit_ctx, unit_venue, user_row, venue_row, ctx_row, act_row, hist_row,
    Ideal.ofBits_def, Ideal.ofBits_zero_f32, zero_add]
  rfl

end Cert.ReferenceIdeal.Rows

end
-- ==== Proof.Entry.lean ====
/-
  What the kernel's region finds in its input arrays. Before the region the host looks the user, venue and history rows
  up and multiplies the two small matrices; these are the very operations the reference starts with, so each array the
  region finds is the reference's own stage of the same arguments, and the scalar's [1, 1] block holds the scalar.
-/
import proofs.«168373_j64742337020083_1_alg».proof.Proof.Gen.KernelIdeal.Frame
import proofs.«168373_j64742337020083_1_alg».proof.Proof.Gen.ReferenceIdeal.Read
import proofs.«168373_j64742337020083_1_alg».proof.Proof.LibLayout
import Idealize.ShloMosaic.Lib.ValueIdx
import Idealize.ShloMosaic.Lib.Pipeline.Value
import Idealize.ShloMosaic.Lib.StableHlo.Run

set_option maxRecDepth 16384

noncomputable section

namespace Cert.KernelIdeal.Entry

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

set_option maxHeartbeats 1600000 in
/-- The looked-up user rows. -/
theorem users (c : Dev nD) : (V m c main_v6 : S2048x256.Idx → EReal)
    = Cert.ReferenceIdeal.Read.val_main_v6 (F := Ideal) (m ((c.tc : Thread nD τ).loc main_arg0)) (m ((c.tc : Thread nD τ).loc main_arg5)) := by
  show StableHlo.after hostOps0 (fun b => m (c, b)) (Proc.devRef .tc main_v6) = _
  after_results
  rfl

set_option maxHeartbeats 1600000 in
/-- The looked-up venue rows. -/
theorem venues (c : Dev nD) : (V m c main_v13 : S2048x256.Idx → EReal)
    = Cert.ReferenceIdeal.Read.val_main_v22 (F := Ideal) (m ((c.tc : Thread nD τ).loc main_arg1)) (m ((c.tc : Thread nD τ).loc main_arg6)) := by
  show StableHlo.after hostOps0 (fun b => m (c, b)) (Proc.devRef .tc main_v13) = _
  after_results
  rfl

set_option maxHeartbeats 1600000 in
/-- The looked-up histories. -/
theorem histories (c : Dev nD) : (V m c main_v20 : S2048x200x256.Idx → EReal)
    = Cert.ReferenceIdeal.Read.val_main_v38 (F := Ideal) (m ((c.tc : Thread nD τ).loc main_arg2)) (m ((c.tc : Thread nD τ).loc main_arg6)) := by
  show StableHlo.after hostOps0 (fun b => m (c, b)) (Proc.devRef .tc main_v20) = _
  after_results
  rfl

set_option maxHeartbeats 1600000 in
/-- The product of the two small matrices. -/
theorem products (c : Dev nD) : (V m c main_v21 : S200x256.Idx → EReal)
    = Cert.ReferenceIdeal.Read.val_main_v49 (F := Ideal) (m ((c.tc : Thread nD τ).loc main_arg8)) (m ((c.tc : Thread nD τ).loc main_arg9)) := by
  show StableHlo.after hostOps0 (fun b => m (c, b)) (Proc.devRef .tc main_v21) = _
  after_results
  rfl

/-- The scalar's [1, 1] block holds the scalar. -/
theorem scalar (c : Dev nD) : (V m c main_v22 : S1x1.Idx → EReal) (ix2 (0 : Fin 1) (0 : Fin 1))
    = ((m ((c.tc : Thread nD τ).loc main_arg11)) : S1.Idx → EReal) (ix1 (0 : Fin 1)) := by
  have e : (V m c main_v22 : S1x1.Idx → EReal) = shapeCast S1x1 ((m ((c.tc : Thread nD τ).loc main_arg11)) : S1.Idx → EReal) shapeCasts_S1_S1x1 := by
    show StableHlo.after hostOps0 (fun b => m (c, b)) (Proc.devRef .tc main_v22) = _
    after_results
    rfl
  rw [e, LibLayout.shapeCast_a_a1_apply]

end Cert.KernelIdeal.Entry

end
-- ==== Proof.lean ====
/-
  The pooled score: a Pallas kernel against its jnp reference, on the extended reals.

  Both programs look 2048 user rows, 2048 venue rows and 2048 × 200 history rows up in the two embedding tables, and
  multiply the two small matrices P and W2; these host steps are the same operations of the same arguments. From there
  the reference works on whole arrays, the kernel on 64 blocks of 32 batch rows, and both compute, for every batch
  row, the one number score(U, V, X, W1, P·W2, bias, a) of Proof/Spec.lean: rows clipped to norm at most one, the
  activations tanh(X·W1 + P·W2 + bias), a softmax over the history axis, the weighted history plus a, and the norm of
  unit(U) + unit(context) - unit(V). No law of arithmetic is needed to join the two sides — only which entries each
  operation reads: a block is 32 consecutive rows of its array, the kernel's matrix product runs on the block flattened
  to 6400 rows, a reduction over an axis is a sum or a fold over that coordinate, and the reference's extra join of -∞
  with the maximum changes nothing. The kernel's column of scores is flattened by the host into the vector the
  reference returns (Proof/KernelRows.lean and Proof/KernelValue.lean for the kernel, Proof/RefRows.lean for the
  reference, Proof/Entry.lean for the shared host steps). The precondition is never opened: every step holds on all
  extended reals. The frames are the generated ones, and the idealization changed nothing that needs a statement.
-/
import proofs.«168373_j64742337020083_1_alg».proof.Defs
import proofs.«168373_j64742337020083_1_alg».proof.Proof.Gen.Kernel
import proofs.«168373_j64742337020083_1_alg».proof.Proof.Gen.Kernel.Skeleton
import proofs.«168373_j64742337020083_1_alg».proof.Proof.Gen.Kernel.Launch
import proofs.«168373_j64742337020083_1_alg».proof.Proof.Gen.Kernel.Points
import proofs.«168373_j64742337020083_1_alg».proof.Proof.Gen.Kernel.Frame
import proofs.«168373_j64742337020083_1_alg».proof.Proof.Gen.KernelIdeal
import proofs.«168373_j64742337020083_1_alg».proof.Proof.Gen.KernelIdeal.Skeleton
import proofs.«168373_j64742337020083_1_alg».proof.Proof.Gen.KernelIdeal.Launch
import proofs.«168373_j64742337020083_1_alg».proof.Proof.Gen.KernelIdeal.Points
import proofs.«168373_j64742337020083_1_alg».proof.Proof.Gen.KernelIdeal.Frame
import proofs.«168373_j64742337020083_1_alg».proof.Proof.Gen.ReferenceIdeal
import proofs.«168373_j64742337020083_1_alg».proof.Proof.Gen.ReferenceIdeal.Run
import proofs.«168373_j64742337020083_1_alg».proof.Proof.Gen.ReferenceIdeal.Read
import proofs.«168373_j64742337020083_1_alg».proof.Proof.Gen.Pre_finite_inputs
import proofs.«168373_j64742337020083_1_alg».proof.Proof.Arrays
import proofs.«168373_j64742337020083_1_alg».proof.Proof.KernelValue
import proofs.«168373_j64742337020083_1_alg».proof.Proof.RefRows
import proofs.«168373_j64742337020083_1_alg».proof.Proof.Entry
import Idealize.ShloMosaic.Adequacy
import Idealize.ShloMosaic.Init

noncomputable section

namespace Cert.Proof

open Idealize.ShloMosaic Idealize.ShloMosaic.ValueIdx Idealize.SL.Sem Cert.Kernel

/-- The word-level kernel's frame is the generated one. -/
theorem frame_k : Cert.frame_Kernel := fun m ρ _ => Cert.Kernel.Gen.frame m ρ

/-- The idealized kernel's frame is the generated one. -/
theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same vector: at batch row b the kernel's
    result is the score of row b of the arrays its region found, the reference's the score of row b of its own stages,
    and those arrays are those stages. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, -, -, h5, h6, h7, h8, h9, h10, h11⟩ := hagree c
  rw [Cert.ReferenceIdeal.Read.val_main_v92_eq, h0, h1, h2, h5, h6, h7, h8, h9, h10, h11]
  funext i
  obtain ⟨b, rfl⟩ : ∃ b : Fin 2048, i = ix1 b := ⟨i 0, eq_ix1 i⟩
  refine (Cert.ReferenceIdeal.Rows.result_row _ _ _ _ _ _ _ _ _ _ b).trans ?_
  rw [Cert.PoolSpec.scoreVec_apply _ _ _ _ _ _ _ _ b rfl, Cert.KernelIdeal.Entry.users, Cert.KernelIdeal.Entry.venues,
    Cert.KernelIdeal.Entry.histories, Cert.KernelIdeal.Entry.products, Cert.KernelIdeal.Entry.scalar,
    Cert.KernelIdeal.Gen.V_main_arg7, Cert.KernelIdeal.Gen.V_main_arg10]
  unfold Cert.PoolSpec.rowScore
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
